-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x7000x64 : Shape := ⟨3, ![16, 7000, 64]⟩
abbrev S84000 : Shape := ⟨1, ![84000]⟩
abbrev S576x64 : Shape := ⟨2, ![576, 64]⟩
abbrev S64 : Shape := ⟨1, ![64]⟩
abbrev S28000x9 : Shape := ⟨2, ![28000, 9]⟩
abbrev S_ : Shape := ⟨0, ![]⟩

class Facts : Prop where
  bcast_S_S16x7000x64 : S_.BroadcastsInDim S16x7000x64 (![] : Fin 0 → Fin S16x7000x64.rank)
  reducesTo_S16x7000x64_S_d0_1_2 : S16x7000x64.ReducesTo [0, 1, 2] S_
  h_S_ : 0 < S_.numel
  bcast_S_S84000 : S_.BroadcastsInDim S84000 (![] : Fin 0 → Fin S84000.rank)
  reducesTo_S84000_S_d0 : S84000.ReducesTo [0] S_
  bcast_S_S576x64 : S_.BroadcastsInDim S576x64 (![] : Fin 0 → Fin S576x64.rank)
  reducesTo_S576x64_S_d0_1 : S576x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x7000x64 .f32) (main_arg1 : FVec F S84000 .f32) (main_arg2 : FVec F S576x64 .f32) (main_arg3 : FVec F S64 .f32) (main_arg4 : IVec S84000 32) (main_arg5 : IVec S84000 32) (main_arg6 : IVec S28000x9 32) : IVec S_ 1 :=
  let main_v0 : FVec F S16x7000x64 .f32 := Host.absf main_arg0
  let main_cst : FVec F S_ .f32 := constant S_ .f32 0x7F800000#32
  let main_v1 : FVec F S16x7000x64 .f32 := broadcastInDim S16x7000x64 ![] bcast_S_S16x7000x64 main_cst
  let main_v2 : IVec S16x7000x64 1 := cmpf .olt main_v0 main_v1
  let main_c : IVec S_ 1 := constantI S_ 1 1#1
  let main_v3 : IVec S_ 1 := (fun x v => Host.reduce IntOp.andi x v reducesTo_S16x7000x64_S_d0_1_2 h_S_) main_v2 main_c
  let main_v4 : FVec F S84000 .f32 := Host.absf main_arg1
  let main_cst_0 : FVec F S_ .f32 := constant S_ .f32 0x7F800000#32
  let main_v5 : FVec F S84000 .f32 := broadcastInDim S84000 ![] bcast_S_S84000 main_cst_0
  let main_v6 : IVec S84000 1 := cmpf .olt main_v4 main_v5
  let main_c_1 : IVec S_ 1 := constantI S_ 1 1#1
  let main_v7 : IVec S_ 1 := (fun x v => Host.reduce IntOp.andi x v reducesTo_S84000_S_d0 h_S_) main_v6 main_c_1
  let main_v8 : IVec S_ 1 := andi main_v3 main_v7
  let main_v9 : FVec F S576x64 .f32 := Host.absf main_arg2
  let main_cst_2 : FVec F S_ .f32 := constant S_ .f32 0x7F800000#32
  let main_v10 : FVec F S576x64 .f32 := broadcastInDim S576x64 ![] bcast_S_S576x64 main_cst_2
  let main_v11 : IVec S576x64 1 := cmpf .olt main_v9 main_v10
  let main_c_3 : IVec S_ 1 := constantI S_ 1 1#1
  let main_v12 : IVec S_ 1 := (fun x v => Host.reduce IntOp.andi x v reducesTo_S576x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x7000x64 : Shape := ⟨3, ![16, 7000, 64]⟩
abbrev S84000 : Shape := ⟨1, ![84000]⟩
abbrev S576x64 : Shape := ⟨2, ![576, 64]⟩
abbrev S64 : Shape := ⟨1, ![64]⟩
abbrev S28000x9 : Shape := ⟨2, ![28000, 9]⟩
abbrev S252000 : Shape := ⟨1, ![252000]⟩
abbrev S_ : Shape := ⟨0, ![]⟩
abbrev S84000x1 : Shape := ⟨2, ![84000, 1]⟩
abbrev S16x84000x64 : Shape := ⟨3, ![16, 84000, 64]⟩
abbrev S1x84000x1 : Shape := ⟨3, ![1, 84000, 1]⟩
abbrev S16x28000x64 : Shape := ⟨3, ![16, 28000, 64]⟩
abbrev S252000x1 : Shape := ⟨2, ![252000, 1]⟩
abbrev S16x252000x64 : Shape := ⟨3, ![16, 252000, 64]⟩
abbrev S16x28000x576 : Shape := ⟨3, ![16, 28000, 576]⟩
abbrev S448000x576 : Shape := ⟨2, ![448000, 576]⟩
abbrev S1x64 : Shape := ⟨2, ![1, 64]⟩
abbrev S448000x64 : Shape := ⟨2, ![448000, 64]⟩
abbrev S3584x576 : Shape := ⟨2, ![3584, 576]⟩
abbrev S3584x64 : Shape := ⟨2, ![3584, 64]⟩

abbrev nBuf : Space → Nat
  | .hbm => 47
  | .vmem => 6
  | .smem => 0
  | _ => 0

abbrev bufTy : (tb : Table) → Fin (tcTables nBuf tb) → BufTy
  | .hbm, ⟨0, _⟩ => ⟨S16x7000x64, .f32⟩
  | .hbm, ⟨1, _⟩ => ⟨S84000, .f32⟩
  | .hbm, ⟨2, _⟩ => ⟨S576x64, .f32⟩
  | .hbm, ⟨3, _⟩ => ⟨S64, .f32⟩
  | .hbm, ⟨4, _⟩ => ⟨S84000, .i32⟩
  | .hbm, ⟨5, _⟩ => ⟨S84000, .i32⟩
  | .hbm, ⟨6, _⟩ => ⟨S28000x9, .i32⟩
  | .hbm, ⟨7, _⟩ => ⟨S252000, .i32⟩
  | .hbm, ⟨8, _⟩ => ⟨S_, .i32⟩
  | .hbm, ⟨9, _⟩ => ⟨S84000, .i32⟩
  | .hbm, ⟨10, _⟩ => ⟨S84000, .i1⟩
  | .hbm, ⟨11, _⟩ => ⟨S_, .i32⟩
  | .hbm, ⟨12, _⟩ => ⟨S84000, .i32⟩
  | .hbm, ⟨13, _⟩ => ⟨S84000, .i32⟩
  | .hbm, ⟨14, _⟩ => ⟨S84000, .i32⟩
  | .hbm, ⟨15, _⟩ => ⟨S84000x1, .i32⟩
  | .hbm, ⟨16, _⟩ => ⟨S16x84000x64, .f32⟩
  | .hbm, ⟨17, _⟩ => ⟨S1x84000x1, .f32⟩
  | .hbm, ⟨18, _⟩ => ⟨S16x84000x64, .f32⟩
  | .hbm, ⟨19, _⟩ => ⟨S16x84000x64, .f32⟩
  | .hbm, ⟨20, _⟩ => ⟨S_, .f32⟩
  | .hbm, ⟨21, _⟩ => ⟨S16x28000x64, .f32⟩
  | .hbm, ⟨22, _⟩ => ⟨S_, .i32⟩
  | .hbm, ⟨23, _⟩ => ⟨S84000, .i32⟩
  | .hbm, ⟨24, _⟩ => ⟨S84000, .i1⟩
  | .hbm, ⟨25, _⟩ => ⟨S_, .i32⟩
  | .hbm, ⟨26, _⟩ => ⟨S84000, .i32⟩
  | .hbm, ⟨27, _⟩ => ⟨S84000, .i32⟩
  | .hbm, ⟨28, _⟩ => ⟨S84000, .i32⟩
  | .hbm, ⟨29, _⟩ => ⟨S84000x1, .i32⟩
  | .hbm, ⟨30, _⟩ => ⟨S16x28000x64, .f32⟩
  | .hbm, ⟨31, _⟩ => ⟨S_, .i32⟩
  | .hbm, ⟨32, _⟩ => ⟨S252000, .i32⟩
  | .hbm, ⟨33, _⟩ => ⟨S252000, .i1⟩
  | .hbm, ⟨34, _⟩ => ⟨S_, .i32⟩
  | .hbm, ⟨35, _⟩ => ⟨S252000, .i32⟩
  | .hbm, ⟨36, _⟩ => ⟨S252000, .i32⟩
  | .hbm, ⟨37, _⟩ => ⟨S252000, .i32⟩
  | .hbm, ⟨38, _⟩ => ⟨S252000x1, .i32⟩
  | .hbm, ⟨39, _⟩ => ⟨S16x252000x64, .f32⟩
  | .hbm, ⟨40, _⟩ => ⟨S16x28000x576, .f32⟩
  | .hbm, ⟨41, _⟩ => ⟨S448000x576, .f32⟩
  | .hbm, ⟨42, _⟩ => ⟨S448000x576, .bf16⟩
  | .hbm, ⟨43, _⟩ => ⟨S576x64, .bf16⟩
  | .hbm, ⟨44, _⟩ => ⟨S1x64, .f32⟩
  | .hbm, ⟨45, _⟩ => ⟨S448000x64, .f32⟩
  | .hbm, ⟨46, _⟩ => ⟨S16x28000x64, .f32⟩
  | .local _ .vmem, ⟨0, _⟩ => ⟨S3584x576, .bf16⟩
  | .local _ .vmem, ⟨1, _⟩ => ⟨S3584x576, .bf16⟩
  | .local _ .vmem, ⟨2, _⟩ => ⟨S576x64, .bf16⟩
  | .local _ .vmem, ⟨3, _⟩ => ⟨S1x64, .f32⟩
  | .local _ .vmem, ⟨4, _⟩ => ⟨S3584x64, .f32⟩
  | .local _ .vmem, ⟨5, _⟩ => ⟨S3584x64, .f32⟩
  | _, _ => ⟨S16x7000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3584x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3584x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S28000x9_S252000 : S28000x9.ShapeCasts S252000
  bcast_S_S84000 : S_.BroadcastsInDim S84000 (![] : Fin 0 → Fin S84000.rank)
  bcast_S84000_S84000x1_0 : S84000.BroadcastsInDim S84000x1 (![0] : Fin 1 → Fin S84000x1.rank)
  bcast_S84000_S1x84000x1_1 : S84000.BroadcastsInDim S1x84000x1 (![1] : Fin 1 → Fin S1x84000x1.rank)
  bcast_S1x84000x1_S16x84000x64_0_1_2 : S1x84000x1.BroadcastsInDim S16x84000x64 (![0, 1, 2] : Fin 3 → Fin S16x84000x64.rank)
  bcast_S_S16x28000x64 : S_.BroadcastsInDim S16x28000x64 (![] : Fin 0 → Fin S16x28000x64.rank)
  bcast_S_S252000 : S_.BroadcastsInDim S252000 (![] : Fin 0 → Fin S252000.rank)
  bcast_S252000_S252000x1_0 : S252000.BroadcastsInDim S252000x1 (![0] : Fin 1 → Fin S252000x1.rank)
  shapeCasts_S16x252000x64_S16x28000x576 : S16x252000x64.ShapeCasts S16x28000x576
  shapeCasts_S16x28000x576_S448000x576 : S16x28000x576.ShapeCasts S448000x576
  bitsLt_bf16_f32 : FTy.bits .bf16 < FTy.bits .f32
  shapeCasts_S64_S1x64 : S64.ShapeCasts S1x64
  inb_S3584x576_S3584x576_0_0 : ∀ a, (![0, 0] : Fin 2 → Nat) a + S3584x576.size a ≤ S3584x576.size a
  h_S3584x576 : 0 < S3584x576.numel
  shapeCasts_S3584x576_S3584x576 : S3584x576.ShapeCasts S3584x576
  inb_S576x64_S576x64_0_0 : ∀ a, (![0, 0] : Fin 2 → Nat) a + S576x64.size a ≤ S576x64.size a
  h_S576x64 : 0 < S576x64.numel
  shapeCasts_S576x64_S576x64 : S576x64.ShapeCasts S576x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3584x64 : S1x64.Broadcasts S3584x64
  inb_S3584x64_S3584x64_0_0 : ∀ a, (![0, 0] : Fin 2 → Nat) a + S3584x64.size a ≤ S3584x64.size a
  h_S3584x64 : 0 < S3584x64.numel
  shapeCasts_S448000x64_S16x28000x64 : S448000x64.ShapeCasts S16x28000x64
  gather_S16x7000x64_S84000x1_S16x84000x64_02_1_n_n_1_1_16164_wf : GatherDims.WF S16x7000x64 S84000x1 S16x84000x64 [0, 2] [1] [] [1] [] 1 ![16, 1, 64]
  scatter_S16x28000x64_S84000x1_S16x84000x64_02_1_1_1_wf : ScatterDims.WF S16x28000x64 S84000x1 S16x84000x64 [0, 2] [1] [1] 1
  gather_S16x28000x64_S252000x1_S16x252000x64_02_1_n_n_1_1_16164_wf : GatherDims.WF S16x28000x64 S252000x1 S16x252000x64 [0, 2] [1] [] [1] [] 1 ![16, 1, 64]
  dot_S3584x576_S576x64_S3584x64_1_0_0_1_n_n_wf : DotDims.WF S3584x576 S576x64 S3584x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3584x576.size a ≤ S448000x576.size a
  hwx0_0 : ∀ i : grid0.Coords, EltTy.bits .bf16 = 32 ∨ (Rect.block (s := S448000x576) S3584x576.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x64.size a ≤ S576x64.size a
  hwx0_1 : ∀ i : grid0.Coords, EltTy.bits .bf16 = 32 ∨ (Rect.block (s := S576x64) S576x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3584x64.size a ≤ S448000x64.size a
  hwx0_3 : ∀ i : grid0.Coords, EltTy.bits .f32 = 32 ∨ (Rect.block (s := S448000x64) S3584x64.size (cc0_transform_3 i) (hinb0_3 i)).WholeWords (EltTy.packing .f32)

variable [Facts₀]

def gather_S16x7000x64_S84000x1_S16x84000x64_02_1_n_n_1_1_16164 : GatherDims S16x7000x64 S84000x1 S16x84000x64 where
  offsetDims := [0, 2]
  collapsedSliceDims := [1]
  operandBatchingDims := []
  startIndicesBatchingDims := []
  startIndexMap := [1]
  indexVectorDim := 1
  sliceSizes := ![16, 1, 64]
  wf := gather_S16x7000x64_S84000x1_S16x84000x64_02_1_n_n_1_1_16164_wf
def scatter_S16x28000x64_S84000x1_S16x84000x64_02_1_1_1 : ScatterDims S16x28000x64 S84000x1 S16x84000x64 where
  updateWindowDims := [0, 2]
  insertedWindowDims := [1]
  scatterDimsToOperandDims := [1]
  indexVectorDim := 1
  wf := scatter_S16x28000x64_S84000x1_S16x84000x64_02_1_1_1_wf
def gather_S16x28000x64_S252000x1_S16x252000x64_02_1_n_n_1_1_16164 : GatherDims S16x28000x64 S252000x1 S16x252000x64 where
  offsetDims := [0, 2]
  collapsedSliceDims := [1]
  operandBatchingDims := []
  startIndicesBatchingDims := []
  startIndexMap := [1]
  indexVectorDim := 1
  sliceSizes := ![16, 1, 64]
  wf := gather_S16x28000x64_S252000x1_S16x252000x64_02_1_n_n_1_1_16164_wf
def dot_S3584x576_S576x64_S3584x64_1_0_0_1_n_n : DotDims S3584x576 S576x64 S3584x64 where
  lhsContracting := [1]
  rhsContracting := [0]
  lhsNonContracting := [0]
  rhsNonContracting := [1]
  lhsBatch := []
  rhsBatch := []
  wf := dot_S3584x576_S576x64_S3584x64_1_0_0_1_n_n_wf

abbrev win0_0 : Pipeline.Window sig grid0 :=
  Pipeline.Window.ofSpec (Memref.whole main_v28) S3584x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S576x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S3584x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x7000x64 : Shape := ⟨3, ![16, 7000, 64]⟩
abbrev S84000 : Shape := ⟨1, ![84000]⟩
abbrev S576x64 : Shape := ⟨2, ![576, 64]⟩
abbrev S64 : Shape := ⟨1, ![64]⟩
abbrev S28000x9 : Shape := ⟨2, ![28000, 9]⟩
abbrev S_ : Shape := ⟨0, ![]⟩
abbrev S84000x1 : Shape := ⟨2, ![84000, 1]⟩
abbrev S16x84000x64 : Shape := ⟨3, ![16, 84000, 64]⟩
abbrev S1x84000x1 : Shape := ⟨3, ![1, 84000, 1]⟩
abbrev S16x28000x64 : Shape := ⟨3, ![16, 28000, 64]⟩
abbrev S252000 : Shape := ⟨1, ![252000]⟩
abbrev S252000x1 : Shape := ⟨2, ![252000, 1]⟩
abbrev S16x252000x64 : Shape := ⟨3, ![16, 252000, 64]⟩
abbrev S16x28000x576 : Shape := ⟨3, ![16, 28000, 576]⟩
abbrev S1x1x64 : Shape := ⟨3, ![1, 1, 64]⟩

abbrev nBuf : Space → Nat
  | .hbm => 60
  | .vmem => 0
  | .smem => 0
  | _ => 0

abbrev bufTy : (tb : Table) → Fin (tcTables nBuf tb) → BufTy
  | .hbm, ⟨0, _⟩ => ⟨S16x7000x64, .f32⟩
  | .hbm, ⟨1, _⟩ => ⟨S84000, .f32⟩
  | .hbm, ⟨2, _⟩ => ⟨S576x64, .f32⟩
  | .hbm, ⟨3, _⟩ => ⟨S64, .f32⟩
  | .hbm, ⟨4, _⟩ => ⟨S84000, .i32⟩
  | .hbm, ⟨5, _⟩ => ⟨S84000, .i32⟩
  | .hbm, ⟨6, _⟩ => ⟨S28000x9, .i32⟩
  | .hbm, ⟨7, _⟩ => ⟨S_, .i32⟩
  | .hbm, ⟨8, _⟩ => ⟨S84000, .i32⟩
  | .hbm, ⟨9, _⟩ => ⟨S84000, .i1⟩
  | .hbm, ⟨10, _⟩ => ⟨S_, .i32⟩
  | .hbm, ⟨11, _⟩ => ⟨S84000, .i32⟩
  | .hbm, ⟨12, _⟩ => ⟨S84000, .i32⟩
  | .hbm, ⟨13, _⟩ => ⟨S84000, .i32⟩
  | .hbm, ⟨14, _⟩ => ⟨S84000x1, .i32⟩
  | .hbm, ⟨15, _⟩ => ⟨S16x84000x64, .f32⟩
  | .hbm, ⟨16, _⟩ => ⟨S1x84000x1, .f32⟩
  | .hbm, ⟨17, _⟩ => ⟨S16x84000x64, .f32⟩
  | .hbm, ⟨18, _⟩ => ⟨S16x84000x64, .f32⟩
  | .hbm, ⟨19, _⟩ => ⟨S_, .f32⟩
  | .hbm, ⟨20, _⟩ => ⟨S16x28000x64, .f32⟩
  | .hbm, ⟨21, _⟩ => ⟨S_, .i32⟩
  | .hbm, ⟨22, _⟩ => ⟨S84000, .i32⟩
  | .hbm, ⟨23, _⟩ => ⟨S84000, .i1⟩
  | .hbm, ⟨24, _⟩ => ⟨S_, .i32⟩
  | .hbm, ⟨25, _⟩ => ⟨S84000, .i32⟩
  | .hbm, ⟨26, _⟩ => ⟨S84000, .i32⟩
  | .hbm, ⟨27, _⟩ => ⟨S84000, .i32⟩
  | .hbm, ⟨28, _⟩ => ⟨S84000x1, .i32⟩
  | .hbm, ⟨29, _⟩ => ⟨S16x28000x64, .f32⟩
  | .hbm, ⟨30, _⟩ => ⟨S252000, .i32⟩
  | .hbm, ⟨31, _⟩ => ⟨S_, .i32⟩
  | .hbm, ⟨32, _⟩ => ⟨S252000, .i32⟩
  | .hbm, ⟨33, _⟩ => ⟨S252000, .i1⟩
  | .hbm, ⟨34, _⟩ => ⟨S_, .i32⟩
  | .hbm, ⟨35, _⟩ => ⟨S252000, .i32⟩
  | .hbm, ⟨36, _⟩ => ⟨S252000, .i32⟩
  | .hbm, ⟨37, _⟩ => ⟨S252000, .i32⟩
  | .hbm, ⟨38, _⟩ => ⟨S252000x1, .i32⟩
  | .hbm, ⟨39, _⟩ => ⟨S16x252000x64, .f32⟩
  | .hbm, ⟨40, _⟩ => ⟨S16x28000x576, .f32⟩
  | .hbm, ⟨41, _⟩ => ⟨S16x28000x64, .f32⟩
  | .hbm, ⟨42, _⟩ => ⟨S1x1x64, .f32⟩
  | .hbm, ⟨43, _⟩ => ⟨S16x28000x64, .f32⟩
  | .hbm, ⟨44, _⟩ => ⟨S16x28000x64, .f32⟩
  | .hbm, ⟨45, _⟩ => ⟨S_, .f32⟩
  | .hbm, ⟨46, _⟩ => ⟨S16x28000x64, .f32⟩
  | .hbm, ⟨47, _⟩ => ⟨S16x28000x64, .i1⟩
  | .hbm, ⟨48, _⟩ => ⟨S_, .f32⟩
  | .hbm, ⟨49, _⟩ => ⟨S16x28000x64, .f32⟩
  | .hbm, ⟨50, _⟩ => ⟨S16x28000x64, .i1⟩
  | .hbm, ⟨51, _⟩ => ⟨S_, .f32⟩
  | .hbm, ⟨52, _⟩ => ⟨S_, .f32⟩
  | .hbm, ⟨53, _⟩ => ⟨S16x28000x64, .f32⟩
  | .hbm, ⟨54, _⟩ => ⟨S16x28000x64, .f32⟩
  | .hbm, ⟨55, _⟩ => ⟨S16x28000x64, .f32⟩
  | .hbm, ⟨56, _⟩ => ⟨S_, .f32⟩
  | .hbm, ⟨57, _⟩ => ⟨S16x28000x64, .f32⟩
  | .hbm, ⟨58, _⟩ => ⟨S16x28000x64, .f32⟩
  | .hbm, ⟨59, _⟩ => ⟨S16x28000x64, .f32⟩
  | _, _ => ⟨S16x7000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_cst_1 : Ref sig .tc := ⟨.hbm, 51, rfl⟩
abbrev main_call0_call0_v0 : Ref sig .tc := ⟨.hbm, 52, rfl⟩
abbrev main_call0_call0_v1 : Ref sig .tc := ⟨.hbm, 53, rfl⟩
abbrev main_call0_v4 : Ref sig .tc := ⟨.hbm, 54, rfl⟩
abbrev main_call0_v5 : Ref sig .tc := ⟨.hbm, 55, rfl⟩
abbrev main_call0_cst_2 : Ref sig .tc := ⟨.hbm, 56, rfl⟩
abbrev main_call0_v6 : Ref sig .tc := ⟨.hbm, 57, rfl⟩
abbrev main_call0_v7 : Ref sig .tc := ⟨.hbm, 58, rfl⟩
abbrev main_v31 : Ref sig .tc := ⟨.hbm, 59, rfl⟩

abbrev nD : Nat := 1
abbrev τ : Topo := Topo.v7x

variable {F : FTy → Type} [FloatOps F]

class Facts₀ : Prop where
  bcast_S_S84000 : S_.BroadcastsInDim S84000 (![] : Fin 0 → Fin S84000.rank)
  bcast_S84000_S84000x1_0 : S84000.BroadcastsInDim S84000x1 (![0] : Fin 1 → Fin S84000x1.rank)
  bcast_S84000_S1x84000x1_1 : S84000.BroadcastsInDim S1x84000x1 (![1] : Fin 1 → Fin S1x84000x1.rank)
  bcast_S1x84000x1_S16x84000x64_0_1_2 : S1x84000x1.BroadcastsInDim S16x84000x64 (![0, 1, 2] : Fin 3 → Fin S16x84000x64.rank)
  bcast_S_S16x28000x64 : S_.BroadcastsInDim S16x28000x64 (![] : Fin 0 → Fin S16x28000x64.rank)
  shapeCasts_S28000x9_S252000 : S28000x9.ShapeCasts S252000
  bcast_S_S252000 : S_.BroadcastsInDim S252000 (![] : Fin 0 → Fin S252000.rank)
  bcast_S252000_S252000x1_0 : S252000.BroadcastsInDim S252000x1 (![0] : Fin 1 → Fin S252000x1.rank)
  shapeCasts_S16x252000x64_S16x28000x576 : S16x252000x64.ShapeCasts S16x28000x576
  bcast_S64_S1x1x64_2 : S64.BroadcastsInDim S1x1x64 (![2] : Fin 1 → Fin S1x1x64.rank)
  bcast_S1x1x64_S16x28000x64_0_1_2 : S1x1x64.BroadcastsInDim S16x28000x64 (![0, 1, 2] : Fin 3 → Fin S16x28000x64.rank)
  gather_S16x7000x64_S84000x1_S16x84000x64_02_1_n_n_1_1_16164_wf : GatherDims.WF S16x7000x64 S84000x1 S16x84000x64 [0, 2] [1] [] [1] [] 1 ![16, 1, 64]
  scatter_S16x28000x64_S84000x1_S16x84000x64_02_1_1_1_wf : ScatterDims.WF S16x28000x64 S84000x1 S16x84000x64 [0, 2] [1] [1] 1
  gather_S16x28000x64_S252000x1_S16x252000x64_02_1_n_n_1_1_16164_wf : GatherDims.WF S16x28000x64 S252000x1 S16x252000x64 [0, 2] [1] [] [1] [] 1 ![16, 1, 64]
  dot_S16x28000x576_S576x64_S16x28000x64_2_0_01_1_n_n_wf : DotDims.WF S16x28000x576 S576x64 S16x28000x64 [2] [0] [0, 1] [1] [] []

variable [Facts₀]

def gather_S16x7000x64_S84000x1_S16x84000x64_02_1_n_n_1_1_16164 : GatherDims S16x7000x64 S84000x1 S16x84000x64 where
  offsetDims := [0, 2]
  collapsedSliceDims := [1]
  operandBatchingDims := []
  startIndicesBatchingDims := []
  startIndexMap := [1]
  indexVectorDim := 1
  sliceSizes := ![16, 1, 64]
  wf := gather_S16x7000x64_S84000x1_S16x84000x64_02_1_n_n_1_1_16164_wf
def scatter_S16x28000x64_S84000x1_S16x84000x64_02_1_1_1 : ScatterDims S16x28000x64 S84000x1 S16x84000x64 where
  updateWindowDims := [0, 2]
  insertedWindowDims := [1]
  scatterDimsToOperandDims := [1]
  indexVectorDim := 1
  wf := scatter_S16x28000x64_S84000x1_S16x84000x64_02_1_1_1_wf
def gather_S16x28000x64_S252000x1_S16x252000x64_02_1_n_n_1_1_16164 : GatherDims S16x28000x64 S252000x1 S16x252000x64 where
  offsetDims := [0, 2]
  collapsedSliceDims := [1]
  operandBatchingDims := []
  startIndicesBatchingDims := []
  startIndexMap := [1]
  indexVectorDim := 1
  sliceSizes := ![16, 1, 64]
  wf := gather_S16x28000x64_S252000x1_S16x252000x64_02_1_n_n_1_1_16164_wf
def dot_S16x28000x576_S576x64_S16x28000x64_2_0_01_1_n_n : DotDims S16x28000x576 S576x64 S16x28000x64 where
  lhsContracting := [2]
  rhsContracting := [0]
  lhsNonContracting := [0, 1]
  rhsNonContracting := [1]
  lhsBatch := []
  rhsBatch := []
  wf := dot_S16x28000x576_S576x64_S16x28000x64_2_0_01_1_n_n_wf

class Facts : Prop extends Facts₀ where

variable [Facts]
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«114509_j68607807586563_1_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.LibElu.lean ====
/-
  The exponential linear unit over the extended reals, in its two usual spellings, and that they agree.

  One spelling is  v if v > 0 else exp v − 1.  The other is  where(v > 0, v, 1 · expm1(where(v > 0, 0, v))),  written so
  that expm1 is never applied to a large positive argument; on a whole array every scalar in it is a zero-rank constant
  spread to the array's shape.  Where the guard fails the inner choice returns v itself, expm1 is exp − 1 over the
  extended reals, and 1 · y = y, so the two agree at every extended real v, the infinities included.  Generic in the
  array's shape.
-/
import Idealize.ShloMosaic.PureOps.Ideal.Laws
import Idealize.ShloMosaic.Lib.ValueIdx
import Idealize.ShloMosaic.Lib.IdealHost
import Idealize.ShloMosaic.Lib.Pipeline.Value

noncomputable section

namespace Cert.LibElu

open Idealize.ShloMosaic Idealize.ShloMosaic.ValueIdx

/-- The exponential linear unit in its direct spelling: the value itself where it is positive, exp − 1 elsewhere. -/
def elu (v : EReal) : EReal :=
  Scalar.select (Ideal.cmp .ogt v (Ideal.ofBits .f32 0x00000000#32)) v (Ideal.exp v - Ideal.ofBits .f32 0x3F800000#32)

/-- For any guard bit the two spellings of the unit's value agree: under the guard both are `v`; otherwise the inner
    choice is `v`, and `1 · (exp v − 1) = exp v − 1`. -/
theorem elu_scalar (c : BitVec 1) (v z : EReal) :
    Scalar.select c v (Ideal.ofBits .f32 0x3F800000#32 * (Ideal.exp (Scalar.select c z v) - 1))
      = Scalar.select c v (Ideal.exp v - Ideal.ofBits .f32 0x3F800000#32) := by
  unfold Scalar.select
  by_cases h : c = 1
  · simp only [if_pos h]
  · simp only [if_neg h, Ideal.ofBits_one_f32, one_mul]

/-- A scalar spread to any shape reads the scalar. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply _ h x j ix0 (fun a => a.elim0)

/-- The unit as jax spells it on a whole array — `where(v > 0, v, 1 · expm1(where(v > 0, 0, v)))`, every scalar a
    zero-rank constant spread to the array's shape — is `elu` entry by entry. -/
theorem elu_jax_apply {s : Shape} (v : FVec Ideal s .f32) (h0 : (⟨0, ![]⟩ : Shape).BroadcastsInDim s ![]) (j : s.Idx) :
    select (cmpf .ogt v (broadcastInDim s ![] h0 (constant (F := Ideal) ⟨0, ![]⟩ .f32 0x00000000#32))) v
      (mulf (broadcastInDim s ![] h0 (constant (F := Ideal) ⟨0, ![]⟩ .f32 0x3F800000#32))
        (Host.expm1 (select (cmpf .ogt v (broadcastInDim s ![] h0 (constant (F := Ideal) ⟨0, ![]⟩ .f32 0x00000000#32)))
          (broadcastInDim s ![] h0 (id (constant (F := Ideal) ⟨0, ![]⟩ .f32 0x00000000#32))) v))) j = elu (v j) := by
  simp only [select, cmpf, mulf, Host.expm1, id, bcast_scalar_apply, constant]
  exact elu_scalar _ _ _

end Cert.LibElu

end
-- ==== Proof.KerPayload.lean ====
/-
  One tile of the kernel's region, entry by entry.

  At a grid point the body holds a tile of 3584 feature rows (576 entries each), the whole 576 × 64 weight matrix and the
  one-row bias. It multiplies the tile by the weights into a zero accumulator, adds the bias row to every row, and applies
  the exponential linear unit spelled  v if v > 0 else exp v − 1.  So entry (p, q) of what it stores is the unit applied to
  Σ_{k < 576} tile (p, k) · weights (k, q) + bias (0, q).
-/
import proofs.«114509_j68607807586563_1_alg».proof.Proof.Gen.KernelIdeal.Skeleton
import proofs.«114509_j68607807586563_1_alg».proof.Proof.LibPlainDotFormats
import proofs.«114509_j68607807586563_1_alg».proof.Proof.LibRowLayout
import proofs.«114509_j68607807586563_1_alg».proof.Proof.LibElu
import Idealize.ShloMosaic.Lib.Pipeline.Value

noncomputable section

namespace Cert.KernelIdeal.KerPayload

open Cert.KernelIdeal Cert.KernelIdeal.Gen Idealize.ShloMosaic Idealize.ShloMosaic.ValueIdx

/-- Entry (p, q) of a tile's result, from the tile of rows `x0`, the weights `x1` and the bias row `x2`. -/
def tileAt (x0 : FVec Ideal S3584x576 .bf16) (x1 : FVec Ideal S576x64 .bf16) (x2 : FVec Ideal S1x64 .f32)
    (p : Fin 3584) (q : Fin 64) : EReal :=
  Cert.LibElu.elu ((∑ k : Fin 576, x0 (ix2 p k) * x1 (ix2 k q)) + x2 (ix2 (0 : Fin 1) q))

/-- The product of the tile with the weights plus the spread bias row, before the activation. -/
def preTile (x0 : FVec Ideal S3584x576 .bf16) (x1 : FVec Ideal S576x64 .bf16) (x2 : FVec Ideal S1x64 .f32) :
    FVec Ideal S3584x64 .f32 :=
  addf (matmul dot_S3584x576_S576x64_S3584x64_1_0_0_1_n_n none (shapeCast S3584x576 x0 shapeCasts_S3584x576_S3584x576)
      (shapeCast S576x64 x1 shapeCasts_S576x64_S576x64) (constant S3584x64 .f32 0x00000000#32))
    (broadcastTo S3584x64 (shapeCast S1x64 x2 shapeCasts_S1x64_S1x64) broadcasts_S1x64_S3584x64)

/-- The contraction is the plain one: second axis of the tile against first axis of the weights. -/
theorem plain : Cert.LibPlainDot.Plain dot_S3584x576_S576x64_S3584x64_1_0_0_1_n_n := ⟨rfl, rfl, rfl, rfl, rfl, rfl⟩

/-- Before the activation, entry (p, q) is row p of the tile against column q of the weights, plus the bias entry q. -/
theorem preTile_apply (x0 : FVec Ideal S3584x576 .bf16) (x1 : FVec Ideal S576x64 .bf16) (x2 : FVec Ideal S1x64 .f32)
    (p : Fin 3584) (q : Fin 64) :
    preTile x0 x1 x2 (ix2 p q) = (∑ k : Fin 576, x0 (ix2 p k) * x1 (ix2 k q)) + x2 (ix2 (0 : Fin 1) q) := by
  unfold preTile
  rw [addf_apply, shapeCast_self, shapeCast_self, shapeCast_self]
  refine congrArg₂ (· + ·) ?_ ?_
  · exact plain.matmul_zero_apply_formats none x0 x1 p q
  · exact Cert.LibRowLayout.broadcastTo_1b_ab_apply x2 broadcasts_S1x64_S3584x64 p q

/-- What the body stores, entry by entry. -/
theorem pay_apply (x0 : Vec Ideal S3584x576 .bf16) (x1 : Vec Ideal S576x64 .bf16) (x2 : Vec Ideal S1x64 .f32)
    (p : Fin 3584) (q : Fin 64) :
    k0_pay1 (F := Ideal) x0 x1 x2 (ix2 p q) = tileAt x0 x1 x2 p q := by
  have h : k0_pay1 (F := Ideal) x0 x1 x2 (ix2 p q) = Cert.LibElu.elu (preTile x0 x1 x2 (ix2 p q)) := rfl
  rw [h, preTile_apply]
  rfl

end Cert.KernelIdeal.KerPayload

end
-- ==== Proof.KerTerm.lean ====
/-
  The arrays the kernel's one tiled region is launched on, as terms of the program's argument arrays.

  Before the region the program pools (`pooled`) and gathers every vertex's nine neighbours (`feat`) exactly as the
  reference does, then lays the [16, 28000, 576] feature array out as 448000 rows of 576 and narrows it to bf16; the
  weights are narrowed to bf16 and the bias becomes one row.
-/
import proofs.«114509_j68607807586563_1_alg».proof.Proof.Gen.KernelIdeal
import Idealize.ShloMosaic.PureOps.Ideal

noncomputable section

namespace Cert.KernelIdeal.KerTerm

open Cert.KernelIdeal Cert.KernelIdeal.Gen Idealize.ShloMosaic Idealize.ShloMosaic.TcCoe

/-- A list of 84000 row numbers made ready for a gather or scatter along an axis of extent `n`: a negative number
    counts from the end (`n` is added to it), and the list is viewed as one column. -/
def wrapped (n : BitVec 32) (i : (⟨S84000, .i32⟩ : BufTy).Contents (Elt Ideal)) : (⟨S84000x1, .i32⟩ : BufTy).Contents (Elt Ideal) :=
  broadcastInDim S84000x1 ![0] bcast_S84000_S84000x1_0
    (select (cmpi .slt i (broadcastInDim S84000 ![] bcast_S_S84000 (constantI S_ 32 0#32)))
      (addi i (broadcastInDim S84000 ![] bcast_S_S84000 (constantI S_ 32 n))) i)

/-- The pooling: the rows of `x` named by `col`, each scaled by its entry of `vals`, added into the rows of a zero
    array named by `row`. -/
def pooled (x : (⟨S16x7000x64, .f32⟩ : BufTy).Contents (Elt Ideal)) (vals : (⟨S84000, .f32⟩ : BufTy).Contents (Elt Ideal))
    (row col : (⟨S84000, .i32⟩ : BufTy).Contents (Elt Ideal)) : (⟨S16x28000x64, .f32⟩ : BufTy).Contents (Elt Ideal) :=
  Host.scatterAdd scatter_S16x28000x64_S84000x1_S16x84000x64_02_1_1_1
    (broadcastInDim S16x28000x64 ![] bcast_S_S16x28000x64 (constant (F := Ideal) S_ .f32 0x00000000#32))
    (wrapped 28000#32 row)
    (mulf (Host.gather gather_S16x7000x64_S84000x1_S16x84000x64_02_1_n_n_1_1_16164 x (wrapped 7000#32 col))
      (broadcastInDim S16x84000x64 ![0, 1, 2] bcast_S1x84000x1_S16x84000x64_0_1_2
        (broadcastInDim S1x84000x1 ![1] bcast_S84000_S1x84000x1_1 vals)))

/-- The nine neighbours' numbers of every vertex as one list, negative numbers counted from the end. -/
def neighbours (spi : (⟨S28000x9, .i32⟩ : BufTy).Contents (Elt Ideal)) : (⟨S252000x1, .i32⟩ : BufTy).Contents (Elt Ideal) :=
  broadcastInDim S252000x1 ![0] bcast_S252000_S252000x1_0
    (select (cmpi .slt (shapeCast S252000 spi shapeCasts_S28000x9_S252000) (broadcastInDim S252000 ![] bcast_S_S252000 (constantI S_ 32 0#32)))
      (addi (shapeCast S252000 spi shapeCasts_S28000x9_S252000) (broadcastInDim S252000 ![] bcast_S_S252000 (constantI S_ 32 28000#32)))
      (shapeCast S252000 spi shapeCasts_S28000x9_S252000))

/-- The feature array: for every vertex the pooled rows of its nine neighbours side by side, [16, 28000, 9·64]. -/
def feat (x : (⟨S16x7000x64, .f32⟩ : BufTy).Contents (Elt Ideal)) (vals : (⟨S84000, .f32⟩ : BufTy).Contents (Elt Ideal))
    (row col : (⟨S84000, .i32⟩ : BufTy).Contents (Elt Ideal)) (spi : (⟨S28000x9, .i32⟩ : BufTy).Contents (Elt Ideal)) :
    (⟨S16x28000x576, .f32⟩ : BufTy).Contents (Elt Ideal) :=
  shapeCast S16x28000x576
    (Host.gather gather_S16x28000x64_S252000x1_S16x252000x64_02_1_n_n_1_1_16164 (pooled x vals row col) (neighbours spi))
    shapeCasts_S16x252000x64_S16x28000x576

/-- The region's first operand: the feature array as 448000 rows, in bf16. -/
def rows (ft : (⟨S16x28000x576, .f32⟩ : BufTy).Contents (Elt Ideal)) : (⟨S448000x576, .bf16⟩ : BufTy).Contents (Elt Ideal) :=
  truncf (F := Ideal) .bf16 (shapeCast S448000x576 ft shapeCasts_S16x28000x576_S448000x576) bitsLt_bf16_f32

/-- The region's second operand: the weights in bf16. -/
def wts (w : (⟨S576x64, .f32⟩ : BufTy).Contents (Elt Ideal)) : (⟨S576x64, .bf16⟩ : BufTy).Contents (Elt Ideal) :=
  truncf (F := Ideal) .bf16 w bitsLt_bf16_f32

/-- The region's third operand: the bias as one row. -/
def biasRow (b : (⟨S64, .f32⟩ : BufTy).Contents (Elt Ideal)) : (⟨S1x64, .f32⟩ : BufTy).Contents (Elt Ideal) :=
  shapeCast S1x64 b shapeCasts_S64_S1x64

end Cert.KernelIdeal.KerTerm

end
-- ==== Proof.KerArray.lean ====
/-
  The kernel's result as one term of its argument arrays.

  The region's result array, as a function of the three arrays it is launched on: entry (r, q) is the exponential linear
  unit of Σ_{k < 576} A (r, k) · W (k, q) + bias (0, q). After the region the program views that 448000 × 64 array as
  [16, 28000, 64]; the arrays it launches the region on are the feature rows, the narrowed weights and the bias row.
-/
import proofs.«114509_j68607807586563_1_alg».proof.Proof.KerTerm
import proofs.«114509_j68607807586563_1_alg».proof.Proof.LibElu

noncomputable section

namespace Cert.KernelIdeal.KerArray

open Cert.KernelIdeal Cert.KernelIdeal.Gen Idealize.ShloMosaic Idealize.ShloMosaic.TcCoe Idealize.ShloMosaic.ValueIdx

/-- Entry (r, q) of the region's result from the arrays it is launched on. -/
def entry (A : S448000x576.Idx → Elt Ideal .bf16) (W : S576x64.Idx → Elt Ideal .bf16) (b2 : S1x64.Idx → Elt Ideal .f32)
    (r : Fin 448000) (q : Fin 64) : EReal :=
  Cert.LibElu.elu ((∑ k : Fin 576, A (ix2 r k) * W (ix2 k q)) + b2 (ix2 (0 : Fin 1) q))

/-- The region's result array. -/
def G (A : S448000x576.Idx → Elt Ideal .bf16) (W : S576x64.Idx → Elt Ideal .bf16) (b2 : S1x64.Idx → Elt Ideal .f32) :
    S448000x64.Idx → Elt Ideal .f32 :=
  fun i => entry A W b2 (i 0) (i 1)

theorem G_apply (A : S448000x576.Idx → Elt Ideal .bf16) (W : S576x64.Idx → Elt Ideal .bf16) (b2 : S1x64.Idx → Elt Ideal .f32)
    (r : Fin 448000) (q : Fin 64) : G A W b2 (ix2 r q) = entry A W b2 r q := rfl

/-- The region's result viewed as [16, 28000, 64], from the feature array, the weights and the bias. -/
def laid (ft : (⟨S16x28000x576, .f32⟩ : BufTy).Contents (Elt Ideal)) (w : (⟨S576x64, .f32⟩ : BufTy).Contents (Elt Ideal))
    (b : (⟨S64, .f32⟩ : BufTy).Contents (Elt Ideal)) : (⟨S16x28000x64, .f32⟩ : BufTy).Contents (Elt Ideal) :=
  shapeCast S16x28000x64 (G (KerTerm.rows ft) (KerTerm.wts w) (KerTerm.biasRow b)) shapeCasts_S448000x64_S16x28000x64

/-- The kernel's result array as a function of its seven arguments (in @main's order: x, values, weight, bias, row, col,
    spiral_indices). -/
def kerOut (x : (⟨S16x7000x64, .f32⟩ : BufTy).Contents (Elt Ideal)) (vals : (⟨S84000, .f32⟩ : BufTy).Contents (Elt Ideal))
    (w : (⟨S576x64, .f32⟩ : BufTy).Contents (Elt Ideal)) (b : (⟨S64, .f32⟩ : BufTy).Contents (Elt Ideal))
    (row col : (⟨S84000, .i32⟩ : BufTy).Contents (Elt Ideal)) (spi : (⟨S28000x9, .i32⟩ : BufTy).Contents (Elt Ideal)) :
    (⟨S16x28000x64, .f32⟩ : BufTy).Contents (Elt Ideal) :=
  laid (KerTerm.feat x vals row col spi) w b

end Cert.KernelIdeal.KerArray

end
-- ==== Proof.KerBlocks.lean ====
/-
  From tiles to the whole array.

  The region's grid has 125 points. Point t works on rows 3584·t … 3584·t + 3583 of the 448000 × 576 feature matrix, on the
  whole weight matrix and on the whole bias row, and writes rows 3584·t … 3584·t + 3583 of the 448000 × 64 result. The
  125 row ranges tile the result, so after the region the result array is ONE function of the three arrays the region was
  launched on: entry (r, q) is the exponential linear unit of Σ_{k < 576} A (r, k) · W (k, q) + bias (0, q).
-/
import proofs.«114509_j68607807586563_1_alg».proof.Proof.Gen.KernelIdeal.Frame
import proofs.«114509_j68607807586563_1_alg».proof.Proof.KerPayload
import proofs.«114509_j68607807586563_1_alg».proof.Proof.KerArray
import Idealize.ShloMosaic.Lib.Pipeline.Value

set_option maxRecDepth 16384

noncomputable section

namespace Cert.KernelIdeal.KerBlocks

open Cert.KernelIdeal Cert.KernelIdeal.Gen Cert.KernelIdeal.KerPayload Cert.KernelIdeal.KerArray Idealize.ShloMosaic Idealize.ShloMosaic.TcCoe
open Idealize.ShloMosaic.ValueIdx Idealize.SL.Sem
open Idealize.ShloMosaic.Pipeline (Dat)

variable (m : (ℓ : Loc nD τ sig) → Buf (Elt Ideal) ℓ)

theorem hz : (![0, 0] : Fin 2 → Nat) = fun _ => 0 := funext fun a => by fin_cases a <;> rfl

/-- A tile whose row p is row r of `A`, whose weights are `W` and whose bias row is `b2` has, at (p, q), the array's
    entry (r, q). -/
theorem tileAt_eq_entry (x0 : FVec Ideal S3584x576 .bf16) (x1 : FVec Ideal S576x64 .bf16) (x2 : FVec Ideal S1x64 .f32)
    (A : S448000x576.Idx → Elt Ideal .bf16) (W : S576x64.Idx → Elt Ideal .bf16) (b2 : S1x64.Idx → Elt Ideal .f32)
    (p : Fin 3584) (q : Fin 64) (r : Fin 448000)
    (h0 : ∀ k : Fin 576, x0 (ix2 p k) = A (ix2 r k)) (h1 : ∀ k : Fin 576, x1 (ix2 k q) = W (ix2 k q))
    (h2 : x2 (ix2 (0 : Fin 1) q) = b2 (ix2 (0 : Fin 1) q)) :
    tileAt x0 x1 x2 p q = entry A W b2 r q := by
  unfold tileAt entry
  simp only [h0, h1, h2]

/-- The printed index maps over the grid: the feature tile and the result tile move down with the point, the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of point t's feature tile is row 3584·t + p of the feature matrix. -/
theorem tile_read (c : Dev nD) (t : Fin cfg0.N) (p : Fin 3584) (k : Fin 576) (r : Fin 448000) (hr : r.val = t.val * 3584 + p.val) :
    iblk m c 0 t (ix2 p k) = V m c main_v28 (ix2 r k) := by
  show V m c main_v28 (((cfg0.win 0).blk t).view.emb (ix2 p k)) = _
  refine congrArg (V m c main_v28) (funext fun a => Fin.ext ?_)
  obtain ⟨e0, e1, -⟩ := idx_facts t
  match a with
  | ⟨0, _⟩ => show win0_0.index t (0 : Fin 2) * 3584 + 1 * p.val = r.val; omega
  | ⟨1, _⟩ => show win0_0.index t (1 : Fin 2) * 576 + 1 * k.val = k.val; omega

/-- Every point's weight block is the weight matrix. -/
theorem weights_read (c : Dev nD) (t : Fin cfg0.N) (k : Fin 576) (q : Fin 64) :
    iblk m c 1 t (ix2 k q) = V m c main_v29 (ix2 k q) := by
  show V m c main_v29 (((cfg0.win 1).blk t).view.emb (ix2 k q)) = _
  refine congrArg (V m c main_v29) (funext fun a => Fin.ext ?_)
  obtain ⟨-, -, e0, e1, -⟩ := idx_facts t
  match a with
  | ⟨0, _⟩ => show win0_1.index t (0 : Fin 2) * 576 + 1 * k.val = k.val; omega
  | ⟨1, _⟩ => show win0_1.index t (1 : Fin 2) * 64 + 1 * q.val = q.val; omega

/-- Every point's bias block is the bias row. -/
theorem bias_read (c : Dev nD) (t : Fin cfg0.N) (u : Fin 1) (q : Fin 64) :
    iblk m c 2 t (ix2 u q) = V m c main_v30 (ix2 u q) := by
  show V m c main_v30 (((cfg0.win 2).blk t).view.emb (ix2 u q)) = _
  refine congrArg (V m c main_v30) (funext fun a => Fin.ext ?_)
  obtain ⟨-, -, -, -, e0, e1, -⟩ := idx_facts t
  match a with
  | ⟨0, _⟩ => show win0_2.index t (0 : Fin 2) * 1 + 1 * u.val = u.val; omega
  | ⟨1, _⟩ => show win0_2.index t (1 : Fin 2) * 64 + 1 * q.val = q.val; omega

/-- Reading any array through point t's result block reads it at the block's positions. -/
theorem read_result_block (t : Fin cfg0.N) (g : S448000x64.Idx → Elt Ideal .f32) (y : S3584x64.Idx) :
    ((cfg0.win 3).blk t).view.read (Elt Ideal) g y = g (((cfg0.win 3).blk t).view.emb y) := rfl

/-- WHAT POINT t WRITES BACK is its block of `G` of the arrays the region was launched on. -/
theorem flushed_eq (c : Dev nD) (t : Fin cfg0.N) :
    (dats m 0 c).flushed 3 t
      = ((cfg0.win 3).blk t).view.read (Elt Ideal) (G (V m c main_v28) (V m c main_v29) (V m c main_v30)) := by
  show (cfg0.win 3).cut (grid0.coords t) ((dats m 0 c).after 3 t) = _
  rw [after0_3]
  unfold out0_3
  rw [View.canon_unit_zero hz]
  simp only [View.ld_unit_zero (S := S3584x576) hz, View.ld_unit_zero (S := S576x64) hz, View.ld_unit_zero (S := S1x64) hz]
  funext j
  obtain ⟨p, q, rfl⟩ : ∃ (p : Fin 3584) (q : Fin 64), j = ix2 p q := ⟨j 0, j 1, eq_ix2 j⟩
  have hN : cfg0.N = 125 := N_0
  have hr : t.val * 3584 + p.val < 448000 := by have := t.isLt; have := p.isLt; omega
  obtain ⟨-, -, -, -, -, -, e0, e1⟩ := idx_facts t
  have hemb : ((cfg0.win 3).blk t).view.emb (ix2 p q) = ix2 (⟨t.val * 3584 + p.val, hr⟩ : Fin 448000) q :=
    funext fun a => Fin.ext (by
      match a with
      | ⟨0, _⟩ => show win0_3.index t (0 : Fin 2) * 3584 + 1 * p.val = t.val * 3584 + p.val; omega
      | ⟨1, _⟩ => show win0_3.index t (1 : Fin 2) * 64 + 1 * q.val = q.val; omega)
  refine (pay_apply (iblk m c 0 t) (iblk m c 1 t) (iblk m c 2 t) p q).trans ?_
  refine Eq.trans ?_ (read_result_block t _ (ix2 p q)).symm
  refine Eq.trans ?_ (congrArg (G (V m c main_v28) (V m c main_v29) (V m c main_v30)) hemb.symm)
  exact tileAt_eq_entry (iblk m c 0 t) (iblk m c 1 t) (iblk m c 2 t) (V m c main_v28) (V m c main_v29) (V m c main_v30)
    p q ⟨t.val * 3584 + p.val, hr⟩
    (fun k => tile_read m c t p k ⟨t.val * 3584 + p.val, hr⟩ rfl) (fun k => weights_read m c t k q) (bias_read m c t 0 q)

/-- An index of the result array is in point t's block iff each coordinate is in the block's range on its axis. -/
theorem mem_blk (t : Fin cfg0.N) (i : S448000x64.Idx) :
    i ∈ ((cfg0.win 3).blk t).view.set ↔ ∀ a : Fin 2, win0_3.index t a * S3584x64.size a ≤ (i a).val ∧ (i a).val < win0_3.index t a * S3584x64.size a + S3584x64.size a := by
  show i ∈ ((View.whole main_v31).slice (win0_3.rect t)).set ↔ _
  rw [View.set_slice_whole, Rect.mem_set_unit]
  exact Iff.rfl

/-- Every entry of the result array is written back by some point: row r by point r / 3584. -/
theorem cover (i : S448000x64.Idx) : ∃ t : Fin cfg0.N, (cfg0.win 3).flush t = true ∧ i ∈ ((cfg0.win 3).blk t).view.set := by
  have hN : cfg0.N = 125 := N_0
  have hi0 : (i 0).val < 448000 := (i 0).isLt
  have hi1 : (i 1).val < 64 := (i 1).isLt
  refine ⟨⟨(i 0).val / 3584, by omega⟩, flush0_3 _, ?_⟩
  rw [mem_blk]
  obtain ⟨-, -, -, -, -, -, e0, e1⟩ := idx_facts ⟨(i 0).val / 3584, by omega⟩
  intro a
  match a with
  | ⟨0, _⟩ =>
    show win0_3.index _ (0 : Fin 2) * 3584 ≤ (i 0).val ∧ (i 0).val < win0_3.index _ (0 : Fin 2) * 3584 + 3584
    rw [e0]; show (i 0).val / 3584 * 3584 ≤ (i 0).val ∧ (i 0).val < (i 0).val / 3584 * 3584 + 3584; omega
  | ⟨1, _⟩ =>
    show win0_3.index _ (1 : Fin 2) * 64 ≤ (i 1).val ∧ (i 1).val < win0_3.index _ (1 : Fin 2) * 64 + 64
    rw [e1]; omega

/-- THE RESULT ARRAY after the region: `G` of the arrays the region was launched on. -/
theorem final (c : Dev nD) :
    (dats m 0 c).arrAt 3 cfg0.N = G (V m c main_v28) (V m c main_v29) (V m c main_v30) :=
  (dats m 0 c).arrAt_eq_of_cover 3 (G (V m c main_v28) (V m c main_v29) (V m c main_v30)) (fun t _ => flushed_eq m c t) cover

end Cert.KernelIdeal.KerBlocks

end
-- ==== Proof.KerRun.lean ====
/-
  The kernel program's run, with its result named.

  Before the tiled region the program computes, on the host, the three arrays the region is launched on: the feature rows
  (pooling, neighbour gather, the [16, 28000, 576] array laid out as 448000 rows, narrowed to bf16), the narrowed weights
  and the bias row. The region leaves the 448000 × 64 array `G` of those three. The one host line after the region views
  it as [16, 28000, 64]. So every execution ends with the result buffer at `kerOut` of the seven arguments, and the
  arguments as they were.
-/
import proofs.«114509_j68607807586563_1_alg».proof.Proof.KerBlocks
import Idealize.ShloMosaic.Lib.StableHlo.Run

set_option maxRecDepth 16384

noncomputable section

namespace Cert.KernelIdeal.KerRun

open Cert.KernelIdeal Cert.KernelIdeal.Gen Cert.KernelIdeal.KerArray Idealize.ShloMosaic Idealize.ShloMosaic.TcCoe
open Idealize.SL.Sem Idealize.ShloMosaic.StableHlo

variable (m : (ℓ : Loc nD τ sig) → Buf (Elt Ideal) ℓ) (ρ : Dev nD → PrngReg)

/-- What the host lines before the region leave in the region's first operand, for any contents of the arguments. -/
theorem rows_read (W : Valuation τ sig (Elt Ideal)) :
    after hostOps0 W (Proc.devRef .tc main_v28)
      = KerTerm.rows (KerTerm.feat (W (Proc.devRef .tc main_arg0)) (W (Proc.devRef .tc main_arg1)) (W (Proc.devRef .tc main_arg4))
          (W (Proc.devRef .tc main_arg5)) (W (Proc.devRef .tc main_arg6))) := by
  after_results_simp
  rfl

/-- … in its second operand, -/
theorem wts_read (W : Valuation τ sig (Elt Ideal)) :
    after hostOps0 W (Proc.devRef .tc main_v29) = KerTerm.wts (W (Proc.devRef .tc main_arg2)) := by
  after_results_simp
  rfl

/-- … and in its third. -/
theorem bias_read (W : Valuation τ sig (Elt Ideal)) :
    after hostOps0 W (Proc.devRef .tc main_v30) = KerTerm.biasRow (W (Proc.devRef .tc main_arg3)) := by
  after_results_simp
  rfl

/-- The one host line after the region views the region's result as [16, 28000, 64]. -/
theorem tail_read (W : Valuation τ sig (Elt Ideal)) :
    after hostOps1 W (Proc.devRef .tc main_v32)
      = shapeCast S16x28000x64 (W (Proc.devRef .tc main_v31)) shapeCasts_S448000x64_S16x28000x64 := by
  after_results
  rfl

/-- The region's result array, from the program's arguments. -/
theorem final_args (c : Dev nD) :
    (dats m 0 c).arrAt 3 cfg0.N
      = G (KerTerm.rows (KerTerm.feat (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))))
          (KerTerm.wts (m ((c.tc : Thread nD τ).loc main_arg2))) (KerTerm.biasRow (m ((c.tc : Thread nD τ).loc main_arg3))) :=
  (KerBlocks.final m c).trans (congr (congr (congrArg G (rows_read (fun b => m (c, b)))) (wts_read (fun b => m (c, b)))) (bias_read (fun b => m (c, b))))

/-- The result buffer after the host line that follows the region. -/
theorem tail_eq (c : Dev nD) :
    Pipeline.afterTail₀ cfgs (dats m) 0 (V0 m) [hostOps1] c main_v32
      = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (tail_read _).trans (congrArg (fun A => shapeCast S16x28000x64 A shapeCasts_S448000x64_S16x28000x64)
    ((Pipeline.withArrays_arr spec0 launch0.win.arr_inj c _ _ 3).trans (final_args m c)))

/-- THE RUN: every weakly fair execution terminates with the result at `kerOut` of the arguments, the arguments unchanged. -/
theorem run : θ_run (defs (F := Ideal)) (onTc (τ := τ) (main (F := Ideal))) ⟨m, fun _ => 0, ρ⟩ fun r => ∀ c : Dev nD,
      r.2.mem ((c.tc : Thread nD τ).loc main_v32) = kerOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).2 main_v32 (Pipeline.mem_restRefs_of main_v32 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.KerRun

end
-- ==== Proof.Spec.lean ====
/-
  What both programs compute, entry by entry.

  From the pooled-and-gathered feature array `feat` of shape [16, 28000, 576], the weights `w` of shape [576, 64] and the
  bias `b` of shape [64], the result at batch `p`, vertex `n`, channel `o` is the exponential linear unit of
  `Σ_{k < 576} feat (p, n, k) · w (k, o) + b o`, over the extended reals.
-/
import proofs.«114509_j68607807586563_1_alg».proof.Proof.LibElu

noncomputable section

namespace Cert.Spec

open Idealize.ShloMosaic Idealize.ShloMosaic.ValueIdx

/-- One entry of the dense layer before its activation: the row of features against the column of weights, plus the bias. -/
def pre (feat : (⟨3, ![16, 28000, 576]⟩ : Shape).Idx → EReal) (w : (⟨2, ![576, 64]⟩ : Shape).Idx → EReal)
    (b : (⟨1, ![64]⟩ : Shape).Idx → EReal) (p : Fin 16) (n : Fin 28000) (o : Fin 64) : EReal :=
  (∑ k : Fin 576, feat (ix3 p n k) * w (ix2 k o)) + b (ix1 o)

/-- The layer's result array: the exponential linear unit of `pre` at every entry. -/
def out (feat : (⟨3, ![16, 28000, 576]⟩ : Shape).Idx → EReal) (w : (⟨2, ![576, 64]⟩ : Shape).Idx → EReal)
    (b : (⟨1, ![64]⟩ : Shape).Idx → EReal) : (⟨3, ![16, 28000, 64]⟩ : Shape).Idx → EReal :=
  fun i => Cert.LibElu.elu (pre feat w b (i 0) (i 1) (i 2))

theorem out_apply (feat : (⟨3, ![16, 28000, 576]⟩ : Shape).Idx → EReal) (w : (⟨2, ![576, 64]⟩ : Shape).Idx → EReal)
    (b : (⟨1, ![64]⟩ : Shape).Idx → EReal) (p : Fin 16) (n : Fin 28000) (o : Fin 64) :
    out feat w b (ix3 p n o) = Cert.LibElu.elu (pre feat w b p n o) := rfl

end Cert.Spec

end
-- ==== Proof.LibFlatten3.lean ====
/-
  Layout facts met when a three-axis array `[a, b, c]` is handled as a matrix of `a · b` rows: the cast that
  flattens its two leading axes into one (row `i · b + j` is the old `(i, j)`) and the cast back; one `[b, c]` slab
  `[1, b, c]` spread along a new leading axis to `[a, b, c]`; and one vector `[c]` viewed as `[1, 1, c]` and spread
  over both leading axes to `[a, b, c]`. Each is read at an entry given by its coordinates. They hold for any extents
  and for entries of any type.
-/
import Idealize.ShloMosaic.Lib.Pipeline.Value
import Idealize.ShloMosaic.Lib.ValueIdx

noncomputable section

namespace Cert.LibFlatten3

open Idealize.ShloMosaic Idealize.ShloMosaic.ValueIdx

variable {α : Type}

/-- An `[a, b, c]` array cast to `[m, c]` (with `m = a · b`) reads, at `(ρ, k)` with `ρ = i · b + j`, the operand at
    `(i, j, k)`: the same row-major position. -/
theorem shapeCast_abc_mc_apply {a b c m : ℕ} (x : (⟨3, ![a, b, c]⟩ : Shape).Idx → α)
    (h : (⟨3, ![a, b, c]⟩ : Shape).ShapeCasts ⟨2, ![m, c]⟩) (i : Fin a) (j : Fin b) (k : Fin c) (ρ : Fin m)
    (hρ : ρ.val = i.val * b + j.val) :
    shapeCast ⟨2, ![m, c]⟩ x h (ix2 ρ k) = x (ix3 i j k) :=
  shapeCast_apply x h _ _ (by
    rw [Shape.rowMajor_val_two, Shape.rowMajor_val_three]
    show (i.val * b + j.val) * c + k.val = ρ.val * c + k.val
    rw [hρ])

/-- An `[m, c]` array (with `m = a · b`) cast to `[a, b, c]` reads, at `(i, j, k)`, the operand at row `ρ = i · b + j`,
    column `k`. -/
theorem shapeCast_mc_abc_apply {a b c m : ℕ} (x : (⟨2, ![m, c]⟩ : Shape).Idx → α)
    (h : (⟨2, ![m, c]⟩ : Shape).ShapeCasts ⟨3, ![a, b, c]⟩) (i : Fin a) (j : Fin b) (k : Fin c) (ρ : Fin m)
    (hρ : ρ.val = i.val * b + j.val) :
    shapeCast ⟨3, ![a, b, c]⟩ x h (ix3 i j k) = x (ix2 ρ k) :=
  shapeCast_apply x h _ _ (by
    rw [Shape.rowMajor_val_two, Shape.rowMajor_val_three]
    show ρ.val * c + k.val = (i.val * b + j.val) * c + k.val
    rw [hρ])

/-- A `[1, b, c]` array spread to `[a, b, c]` reads, at `(i, j, k)`, the operand at `(0, j, k)`: the same for every `i`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    rw [hu, hv]
    omega)

/-- A `[1, 1, c]` array spread to `[a, b, c]` reads, at `(i, j, k)`, the operand's entry `k`: the same for every `(i, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibFlatten3

end
-- ==== Proof.KerRead.lean ====
/-
  The kernel's laid-out result is the specification.

  The kernel's region works on the feature array laid out as 448000 rows of 576 (row p · 28000 + n is batch p, vertex n)
  and narrowed to bf16, on the weights narrowed to bf16, and on the bias as one row; its result, 448000 rows of 64, is
  viewed back as [16, 28000, 64].  Over the extended reals a change of float format is the identity, and a change of
  shape keeps every entry at its row-major position.  So at (p, n, o) the laid-out result is the region's entry at row
  r = p · 28000 + n, column o; row r of the flattened features at column k is the feature array at (p, n, k); the
  narrowed weights at (k, o) are the weights there; the bias row at (0, o) is the bias at o.  The entry is therefore the
  exponential linear unit of Σ_{k < 576} ft (p, n, k) · w (k, o) + b o, which is the specification's entry.  The feature
  array is arbitrary.
-/
import proofs.«114509_j68607807586563_1_alg».proof.Proof.KerArray
import proofs.«114509_j68607807586563_1_alg».proof.Proof.Spec
import proofs.«114509_j68607807586563_1_alg».proof.Proof.LibFlatten3
import proofs.«114509_j68607807586563_1_alg».proof.Proof.LibRowLayout
import Idealize.ShloMosaic.Lib.ValueIdx
import Idealize.ShloMosaic.Lib.Pipeline.Value

noncomputable section

namespace Cert.KernelIdeal.KerRead

open Cert.KernelIdeal Cert.KernelIdeal.Gen Idealize.ShloMosaic Idealize.ShloMosaic.ValueIdx

/-- Row r = p · 28000 + n of the flattened, narrowed feature array reads, at column k, the feature array at (p, n, k):
    the narrowing is the identity and the flattening keeps the row-major position. -/
theorem rows_apply (ft : (⟨S16x28000x576, .f32⟩ : BufTy).Contents (Elt Ideal)) (p : Fin 16) (n : Fin 28000) (k : Fin 576)
    (r : Fin 448000) (hr : r.val = p.val * 28000 + n.val) :
    KerTerm.rows ft (ix2 r k) = ft (ix3 p n k) :=
  Cert.LibFlatten3.shapeCast_abc_mc_apply ft shapeCasts_S16x28000x576_S448000x576 p n k r hr

/-- The narrowed weights are the weights. -/
theorem wts_apply (w : (⟨S576x64, .f32⟩ : BufTy).Contents (Elt Ideal)) (k : Fin 576) (o : Fin 64) :
    KerTerm.wts w (ix2 k o) = w (ix2 k o) := rfl

/-- The bias viewed as one row reads, at (0, o), the bias at o. -/
theorem biasRow_apply (b : (⟨S64, .f32⟩ : BufTy).Contents (Elt Ideal)) (o : Fin 64) :
    KerTerm.biasRow b (ix2 (0 : Fin 1) o) = b (ix1 o) :=
  Cert.LibRowLayout.shapeCast_b_1b_apply b shapeCasts_S64_S1x64 0 o

/-- The region's entry at row r = p · 28000 + n, column o, on the kernel's three arrays: the unit of the specification's
    dense entry at (p, n, o). -/
theorem entry_eq (ft : (⟨S16x28000x576, .f32⟩ : BufTy).Contents (Elt Ideal)) (w : (⟨S576x64, .f32⟩ : BufTy).Contents (Elt Ideal))
    (b : (⟨S64, .f32⟩ : BufTy).Contents (Elt Ideal)) (p : Fin 16) (n : Fin 28000) (o : Fin 64)
    (r : Fin 448000) (hr : r.val = p.val * 28000 + n.val) :
    KerArray.entry (KerTerm.rows ft) (KerTerm.wts w) (KerTerm.biasRow b) r o = Cert.LibElu.elu (Cert.Spec.pre ft w b p n o) := by
  unfold KerArray.entry Cert.Spec.pre
  refine congrArg Cert.LibElu.elu (congrArg₂ (· + ·) (Finset.sum_congr rfl fun k _ => ?_) (biasRow_apply b o))
  rw [rows_apply ft p n k r hr, wts_apply]

/-- The laid-out result at (p, n, o). -/
theorem laid_apply (ft : (⟨S16x28000x576, .f32⟩ : BufTy).Contents (Elt Ideal)) (w : (⟨S576x64, .f32⟩ : BufTy).Contents (Elt Ideal))
    (b : (⟨S64, .f32⟩ : BufTy).Contents (Elt Ideal)) (p : Fin 16) (n : Fin 28000) (o : Fin 64) :
    KerArray.laid ft w b (ix3 p n o) = Cert.LibElu.elu (Cert.Spec.pre ft w b p n o) := by
  have hlt : p.val * 28000 + n.val < 448000 := by have := p.isLt; have := n.isLt; omega
  refine (Cert.LibFlatten3.shapeCast_mc_abc_apply _ shapeCasts_S448000x64_S16x28000x64 p n o ⟨p.val * 28000 + n.val, hlt⟩ rfl).trans ?_
  exact (KerArray.G_apply _ _ _ _ _).trans (entry_eq ft w b p n o _ rfl)

/-- The whole array: the kernel's laid-out result is the specification. -/
theorem laid_eq_spec (ft : (⟨S16x28000x576, .f32⟩ : BufTy).Contents (Elt Ideal)) (w : (⟨S576x64, .f32⟩ : BufTy).Contents (Elt Ideal))
    (b : (⟨S64, .f32⟩ : BufTy).Contents (Elt Ideal)) :
    KerArray.laid ft w b = Cert.Spec.out ft w b := by
  funext i
  obtain ⟨p, n, o, rfl⟩ : ∃ (p : Fin 16) (n : Fin 28000) (o : Fin 64), i = ix3 p n o := ⟨i 0, i 1, i 2, eq_ix3 i⟩
  exact (laid_apply ft w b p n o).trans (Cert.Spec.out_apply ft w b p n o).symm

end Cert.KernelIdeal.KerRead

end
-- ==== Proof.RefTerm.lean ====
/-
  The reference's result as one term of its argument arrays.

  The reference pools (`pooled`), gathers every vertex's nine neighbours (`feat`), multiplies the [16, 28000, 576]
  feature array by the [576, 64] weights, adds the bias spread over batch and vertex, and applies the exponential linear
  unit in the spelling where(v > 0, v, 1 · expm1(where(v > 0, 0, v))).
-/
import proofs.«114509_j68607807586563_1_alg».proof.Proof.Gen.ReferenceIdeal
import Idealize.ShloMosaic.PureOps.Ideal

noncomputable section

namespace Cert.ReferenceIdeal.RefTerm

open Cert.ReferenceIdeal Cert.ReferenceIdeal.Gen Idealize.ShloMosaic Idealize.ShloMosaic.TcCoe

/-- A list of 84000 row numbers made ready for a gather or scatter along an axis of extent `n`: a negative number
    counts from the end (`n` is added to it), and the list is viewed as one column. -/
def wrapped (n : BitVec 32) (i : (⟨S84000, .i32⟩ : BufTy).Contents (Elt Ideal)) : (⟨S84000x1, .i32⟩ : BufTy).Contents (Elt Ideal) :=
  broadcastInDim S84000x1 ![0] bcast_S84000_S84000x1_0
    (select (cmpi .slt i (broadcastInDim S84000 ![] bcast_S_S84000 (constantI S_ 32 0#32)))
      (addi i (broadcastInDim S84000 ![] bcast_S_S84000 (constantI S_ 32 n))) i)

/-- The pooling: the rows of `x` named by `col`, each scaled by its entry of `vals`, added into the rows of a zero
    array named by `row`. -/
def pooled (x : (⟨S16x7000x64, .f32⟩ : BufTy).Contents (Elt Ideal)) (vals : (⟨S84000, .f32⟩ : BufTy).Contents (Elt Ideal))
    (row col : (⟨S84000, .i32⟩ : BufTy).Contents (Elt Ideal)) : (⟨S16x28000x64, .f32⟩ : BufTy).Contents (Elt Ideal) :=
  Host.scatterAdd scatter_S16x28000x64_S84000x1_S16x84000x64_02_1_1_1
    (broadcastInDim S16x28000x64 ![] bcast_S_S16x28000x64 (constant (F := Ideal) S_ .f32 0x00000000#32))
    (wrapped 28000#32 row)
    (mulf (Host.gather gather_S16x7000x64_S84000x1_S16x84000x64_02_1_n_n_1_1_16164 x (wrapped 7000#32 col))
      (broadcastInDim S16x84000x64 ![0, 1, 2] bcast_S1x84000x1_S16x84000x64_0_1_2
        (broadcastInDim S1x84000x1 ![1] bcast_S84000_S1x84000x1_1 vals)))

/-- The nine neighbours' numbers of every vertex as one list, negative numbers counted from the end. -/
def neighbours (spi : (⟨S28000x9, .i32⟩ : BufTy).Contents (Elt Ideal)) : (⟨S252000x1, .i32⟩ : BufTy).Contents (Elt Ideal) :=
  broadcastInDim S252000x1 ![0] bcast_S252000_S252000x1_0
    (select (cmpi .slt (shapeCast S252000 spi shapeCasts_S28000x9_S252000) (broadcastInDim S252000 ![] bcast_S_S252000 (constantI S_ 32 0#32)))
      (addi (shapeCast S252000 spi shapeCasts_S28000x9_S252000) (broadcastInDim S252000 ![] bcast_S_S252000 (constantI S_ 32 28000#32)))
      (shapeCast S252000 spi shapeCasts_S28000x9_S252000))

/-- The feature array: for every vertex the pooled rows of its nine neighbours side by side, [16, 28000, 9·64]. -/
def feat (x : (⟨S16x7000x64, .f32⟩ : BufTy).Contents (Elt Ideal)) (vals : (⟨S84000, .f32⟩ : BufTy).Contents (Elt Ideal))
    (row col : (⟨S84000, .i32⟩ : BufTy).Contents (Elt Ideal)) (spi : (⟨S28000x9, .i32⟩ : BufTy).Contents (Elt Ideal)) :
    (⟨S16x28000x576, .f32⟩ : BufTy).Contents (Elt Ideal) :=
  shapeCast S16x28000x576
    (Host.gather gather_S16x28000x64_S252000x1_S16x252000x64_02_1_n_n_1_1_16164 (pooled x vals row col) (neighbours spi))
    shapeCasts_S16x252000x64_S16x28000x576

/-- The exponential linear unit as the reference spells it on a whole [16, 28000, 64] array. -/
def eluJax (v : (⟨S16x28000x64, .f32⟩ : BufTy).Contents (Elt Ideal)) : (⟨S16x28000x64, .f32⟩ : BufTy).Contents (Elt Ideal) :=
  select (cmpf .ogt v (broadcastInDim S16x28000x64 ![] bcast_S_S16x28000x64 (constant (F := Ideal) S_ .f32 0x00000000#32))) v
    (mulf (broadcastInDim S16x28000x64 ![] bcast_S_S16x28000x64 (constant (F := Ideal) S_ .f32 0x3F800000#32))
      (Host.expm1 (select (cmpf .ogt v (broadcastInDim S16x28000x64 ![] bcast_S_S16x28000x64 (constant (F := Ideal) S_ .f32 0x00000000#32)))
        (broadcastInDim S16x28000x64 ![] bcast_S_S16x28000x64 (id (constant (F := Ideal) S_ .f32 0x00000000#32))) v)))

/-- The layer before its activation: features times weights, plus the bias spread over batch and vertex. -/
def dense (ft : (⟨S16x28000x576, .f32⟩ : BufTy).Contents (Elt Ideal)) (w : (⟨S576x64, .f32⟩ : BufTy).Contents (Elt Ideal))
    (b : (⟨S64, .f32⟩ : BufTy).Contents (Elt Ideal)) : (⟨S16x28000x64, .f32⟩ : BufTy).Contents (Elt Ideal) :=
  addf (Host.dotGeneral (F := Ideal) (φ₁ := .f32) (φ₂ := .f32) dot_S16x28000x576_S576x64_S16x28000x64_2_0_01_1_n_n none ft w)
    (broadcastInDim S16x28000x64 ![0, 1, 2] bcast_S1x1x64_S16x28000x64_0_1_2 (broadcastInDim S1x1x64 ![2] bcast_S64_S1x1x64_2 b))

/-- The reference's result array as a function of its seven arguments (in @main's order: x, values, weight, bias, row, col,
    spiral_indices). -/
def refOut (x : (⟨S16x7000x64, .f32⟩ : BufTy).Contents (Elt Ideal)) (vals : (⟨S84000, .f32⟩ : BufTy).Contents (Elt Ideal))
    (w : (⟨S576x64, .f32⟩ : BufTy).Contents (Elt Ideal)) (b : (⟨S64, .f32⟩ : BufTy).Contents (Elt Ideal))
    (row col : (⟨S84000, .i32⟩ : BufTy).Contents (Elt Ideal)) (spi : (⟨S28000x9, .i32⟩ : BufTy).Contents (Elt Ideal)) :
    (⟨S16x28000x64, .f32⟩ : BufTy).Contents (Elt Ideal) :=
  eluJax (dense (feat x vals row col spi) w b)

end Cert.ReferenceIdeal.RefTerm

end
-- ==== Proof.LibKeeps.lean ====
/-
  A buffer that no operation of a stretch writes keeps its contents across the stretch.

  The contents after a list of host operations are a fold: each operation replaces the one buffer it writes. So for a
  literal list and a literal buffer the statement "the fold at this buffer is what was there" comes down to one
  inequality of buffer names per operation, each decided by evaluation. `keeps_host ops` closes a goal
  `after ops V (devRef b) = V (devRef b)` that way, `ops` being the name of the list's definition.
-/
import Idealize.ShloMosaic.Lib.StableHlo.Run

open Idealize.ShloMosaic in
/-- Closes `StableHlo.after ops V (Proc.devRef .tc b) = V (Proc.devRef .tc b)` for the literal list of host operations
    named `ops` and a literal buffer `b` none of them writes. -/
macro "keeps_host " ops:ident : tactic =>
  `(tactic| exact StableHlo.after_of_forall_not_mem _ _ (List.forall_iff_forall_mem.mp (by
      simp only [$ops:ident, List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, Finset.mem_singleton]
      repeat' apply And.intro
      all_goals exact StableHlo.devRef_ne_of_ne (by decide))))
-- ==== Proof.RefRun.lean ====
/-
  The reference's run: its entry function as one straight line of host operations, and what that line leaves in memory.

  The entry function pools, gathers the neighbours, multiplies by the weights, adds the bias, and then calls the
  exponential linear unit, a function of the module that itself calls two selection helpers. A call's meaning is the
  callee's body run on the operands, so the whole program is one line of 53 operations: the entry function's own 38,
  then the unit's 15 (its two zeros, their broadcasts and the two comparisons with zero, a third zero; the first
  helper's conversion of that scalar, its broadcast and the selection; the exponential minus one, the constant one, its
  broadcast, the product; the second helper's selection, whose result is the program's). Read back buffer by buffer,
  the line leaves the result buffer at the composed term `RefTerm.refOut` of the seven arguments' launch contents, and
  every argument buffer as it was, no operation writing one.
-/
import proofs.«114509_j68607807586563_1_alg».proof.Proof.RefTerm
import proofs.«114509_j68607807586563_1_alg».proof.Proof.LibKeeps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 53 operations in order, the calls unfolded: the entry function's 38, then the exponential linear
    unit's over the buffers of its one call — seven of its own, the first selection helper's three, four more of its
    own, the second helper's one. -/
abbrev ops : List (HloOp τ sig (Elt F)) :=
  [ nullary main_c (constantI S_ 32 0#32),
    unary main_c main_v0 (broadcastInDim S84000 ![] bcast_S_S84000 : (⟨S_, .i32⟩ : BufTy).Contents (Elt F) → (⟨S84000, .i32⟩ : BufTy).Contents (Elt F)),
    binary main_arg5 main_v0 main_v1 (cmpi .slt : (⟨S84000, .i32⟩ : BufTy).Contents (Elt F) → (⟨S84000, .i32⟩ : BufTy).Contents (Elt F) → (⟨S84000, .i1⟩ : BufTy).Contents (Elt F)),
    nullary main_c_0 (constantI S_ 32 7000#32),
    unary main_c_0 main_v2 (broadcastInDim S84000 ![] bcast_S_S84000 : (⟨S_, .i32⟩ : BufTy).Contents (Elt F) → (⟨S84000, .i32⟩ : BufTy).Contents (Elt F)),
    binary main_arg5 main_v2 main_v3 (addi : (⟨S84000, .i32⟩ : BufTy).Contents (Elt F) → (⟨S84000, .i32⟩ : BufTy).Contents (Elt F) → (⟨S84000, .i32⟩ : BufTy).Contents (Elt F)),
    ternary main_v1 main_v3 main_arg5 main_v4 (select : (⟨S84000, .i1⟩ : BufTy).Contents (Elt F) → (⟨S84000, .i32⟩ : BufTy).Contents (Elt F) → (⟨S84000, .i32⟩ : BufTy).Contents (Elt F) → (⟨S84000, .i32⟩ : BufTy).Contents (Elt F)),
    unary main_v4 main_v5 (broadcastInDim S84000x1 ![0] bcast_S84000_S84000x1_0 : (⟨S84000, .i32⟩ : BufTy).Contents (Elt F) → (⟨S84000x1, .i32⟩ : BufTy).Contents (Elt F)),
    binary main_arg0 main_v5 main_v6 ((fun x i => Host.gather gather_S16x7000x64_S84000x1_S16x84000x64_02_1_n_n_1_1_16164 x i) : (⟨S16x7000x64, .f32⟩ : BufTy).Contents (Elt F) → (⟨S84000x1, .i32⟩ : BufTy).Contents (Elt F) → (⟨S16x84000x64, .f32⟩ : BufTy).Contents (Elt F)),
    unary main_arg1 main_v7 (broadcastInDim S1x84000x1 ![1] bcast_S84000_S1x84000x1_1 : (⟨S84000, .f32⟩ : BufTy).Contents (Elt F) → (⟨S1x84000x1, .f32⟩ : BufTy).Contents (Elt F)),
    unary main_v7 main_v8 (broadcastInDim S16x84000x64 ![0, 1, 2] bcast_S1x84000x1_S16x84000x64_0_1_2 : (⟨S1x84000x1, .f32⟩ : BufTy).Contents (Elt F) → (⟨S16x84000x64, .f32⟩ : BufTy).Contents (Elt F)),
    binary main_v6 main_v8 main_v9 (mulf : (⟨S16x84000x64, .f32⟩ : BufTy).Contents (Elt F) → (⟨S16x84000x64, .f32⟩ : BufTy).Contents (Elt F) → (⟨S16x84000x64, .f32⟩ : BufTy).Contents (Elt F)),
    nullary main_cst (constant S_ .f32 0x00000000#32),
    unary main_cst main_v10 (broadcastInDim S16x28000x64 ![] bcast_S_S16x28000x64 : (⟨S_, .f32⟩ : BufTy).Contents (Elt F) → (⟨S16x28000x64, .f32⟩ : BufTy).Contents (Elt F)),
    nullary main_c_1 (constantI S_ 32 0#32),
    unary main_c_1 main_v11 (broadcastInDim S84000 ![] bcast_S_S84000 : (⟨S_, .i32⟩ : BufTy).Contents (Elt F) → (⟨S84000, .i32⟩ : BufTy).Contents (Elt F)),
    binary main_arg4 main_v11 main_v12 (cmpi .slt : (⟨S84000, .i32⟩ : BufTy).Contents (Elt F) → (⟨S84000, .i32⟩ : BufTy).Contents (Elt F) → (⟨S84000, .i1⟩ : BufTy).Contents (Elt F)),
    nullary main_c_2 (constantI S_ 32 28000#32),
    unary main_c_2 main_v13 (broadcastInDim S84000 ![] bcast_S_S84000 : (⟨S_, .i32⟩ : BufTy).Contents (Elt F) → (⟨S84000, .i32⟩ : BufTy).Contents (Elt F)),
    binary main_arg4 main_v13 main_v14 (addi : (⟨S84000, .i32⟩ : BufTy).Contents (Elt F) → (⟨S84000, .i32⟩ : BufTy).Contents (Elt F) → (⟨S84000, .i32⟩ : BufTy).Contents (Elt F)),
    ternary main_v12 main_v14 main_arg4 main_v15 (select : (⟨S84000, .i1⟩ : BufTy).Contents (Elt F) → (⟨S84000, .i32⟩ : BufTy).Contents (Elt F) → (⟨S84000, .i32⟩ : BufTy).Contents (Elt F) → (⟨S84000, .i32⟩ : BufTy).Contents (Elt F)),
    unary main_v15 main_v16 (broadcastInDim S84000x1 ![0] bcast_S84000_S84000x1_0 : (⟨S84000, .i32⟩ : BufTy).Contents (Elt F) → (⟨S84000x1, .i32⟩ : BufTy).Contents (Elt F)),
    ternary main_v10 main_v16 main_v9 main_v17 ((fun x i u => Host.scatterAdd scatter_S16x28000x64_S84000x1_S16x84000x64_02_1_1_1 x i u) : (⟨S16x28000x64, .f32⟩ : BufTy).Contents (Elt F) → (⟨S84000x1, .i32⟩ : BufTy).Contents (Elt F) → (⟨S16x84000x64, .f32⟩ : BufTy).Contents (Elt F) → (⟨S16x28000x64, .f32⟩ : BufTy).Contents (Elt F)),
    reshape main_arg6 main_v18 rfl shapeCasts_S28000x9_S252000,
    nullary main_c_3 (constantI S_ 32 0#32),
    unary main_c_3 main_v19 (broadcastInDim S252000 ![] bcast_S_S252000 : (⟨S_, .i32⟩ : BufTy).Contents (Elt F) → (⟨S252000, .i32⟩ : BufTy).Contents (Elt F)),
    binary main_v18 main_v19 main_v20 (cmpi .slt : (⟨S252000, .i32⟩ : BufTy).Contents (Elt F) → (⟨S252000, .i32⟩ : BufTy).Contents (Elt F) → (⟨S252000, .i1⟩ : BufTy).Contents (Elt F)),
    nullary main_c_4 (constantI S_ 32 28000#32),
    unary main_c_4 main_v21 (broadcastInDim S252000 ![] bcast_S_S252000 : (⟨S_, .i32⟩ : BufTy).Contents (Elt F) → (⟨S252000, .i32⟩ : BufTy).Contents (Elt F)),
    binary main_v18 main_v21 main_v22 (addi : (⟨S252000, .i32⟩ : BufTy).Contents (Elt F) → (⟨S252000, .i32⟩ : BufTy).Contents (Elt F) → (⟨S252000, .i32⟩ : BufTy).Contents (Elt F)),
    ternary main_v20 main_v22 main_v18 main_v23 (select : (⟨S252000, .i1⟩ : BufTy).Contents (Elt F) → (⟨S252000, .i32⟩ : BufTy).Contents (Elt F) → (⟨S252000, .i32⟩ : BufTy).Contents (Elt F) → (⟨S252000, .i32⟩ : BufTy).Contents (Elt F)),
    unary main_v23 main_v24 (broadcastInDim S252000x1 ![0] bcast_S252000_S252000x1_0 : (⟨S252000, .i32⟩ : BufTy).Contents (Elt F) → (⟨S252000x1, .i32⟩ : BufTy).Contents (Elt F)),
    binary main_v17 main_v24 main_v25 ((fun x i => Host.gather gather_S16x28000x64_S252000x1_S16x252000x64_02_1_n_n_1_1_16164 x i) : (⟨S16x28000x64, .f32⟩ : BufTy).Contents (Elt F) → (⟨S252000x1, .i32⟩ : BufTy).Contents (Elt F) → (⟨S16x252000x64, .f32⟩ : BufTy).Contents (Elt F)),
    reshape main_v25 main_v26 rfl shapeCasts_S16x252000x64_S16x28000x576,
    binary main_v26 main_arg2 main_v27 ((fun l r => Host.dotGeneral dot_S16x28000x576_S576x64_S16x28000x64_2_0_01_1_n_n none l r) : (⟨S16x28000x576, .f32⟩ : BufTy).Contents (Elt F) → (⟨S576x64, .f32⟩ : BufTy).Contents (Elt F) → (⟨S16x28000x64, .f32⟩ : BufTy).Contents (Elt F)),
    unary main_arg3 main_v28 (broadcastInDim S1x1x64 ![2] bcast_S64_S1x1x64_2 : (⟨S64, .f32⟩ : BufTy).Contents (Elt F) → (⟨S1x1x64, .f32⟩ : BufTy).Contents (Elt F)),
    unary main_v28 main_v29 (broadcastInDim S16x28000x64 ![0, 1, 2] bcast_S1x1x64_S16x28000x64_0_1_2 : (⟨S1x1x64, .f32⟩ : BufTy).Contents (Elt F) → (⟨S16x28000x64, .f32⟩ : BufTy).Contents (Elt F)),
    binary main_v27 main_v29 main_v30 (addf : (⟨S16x28000x64, .f32⟩ : BufTy).Contents (Elt F) → (⟨S16x28000x64, .f32⟩ : BufTy).Contents (Elt F) → (⟨S16x28000x64, .f32⟩ : BufTy).Contents (Elt F)),
    TRef.nullary main_call0.cst (constant S_ .f32 0x00000000#32),
    TRef.unary main_call0.cst main_call0.v0 (broadcastInDim S16x28000x64 ![] bcast_S_S16x28000x64),
    TRef.binary (.of main_v30) main_call0.v0 main_call0.v1 (cmpf .ogt),
    TRef.nullary main_call0.cst_0 (constant S_ .f32 0x00000000#32),
    TRef.unary main_call0.cst_0 main_call0.v2 (broadcastInDim S16x28000x64 ![] bcast_S_S16x28000x64),
    TRef.binary (.of main_v30) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S16x28000x64 ![] bcast_S_S16x28000x64),
    TRef.ternary main_call0.v3 main_call0.call0.v1 (.of main_v30) main_call0.call0.v2 select,
    TRef.unary main_call0.call0.v2 main_call0.v5 Host.expm1,
    TRef.nullary main_call0.cst_2 (constant S_ .f32 0x3F800000#32),
    TRef.unary main_call0.cst_2 main_call0.v6 (broadcastInDim S16x28000x64 ![] bcast_S_S16x28000x64),
    TRef.binary main_call0.v6 main_call0.v5 main_call0.v7 mulf,
    TRef.ternary main_call0.v1 (.of main_v30) main_call0.v7 main_call0.call1.v0 select ]

-- fifty-three binds re-associated: the rewrite under the chain recurses once per statement
set_option maxRecDepth 2048 in
/-- The entry function is that straight line: with the three functions' definitions unfolded at their calls and the
    call records at their fields, both sides are one chain of host steps once sequencing is re-associated. -/
theorem main_eq (c : Dev nD) : main (F := F) c = seq ops := by
  simp only [main, fn_elu.body, fn_where.body, fn_where_0.body, seq, bind_assoc, pure_bind]

/-- The signature scopes no buffer and no semaphore of the core: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., nullary_bufs_sub .., unary_bufs_sub .., binary_bufs_sub .., nullary_bufs_sub ..,
    unary_bufs_sub .., binary_bufs_sub .., ternary_bufs_sub .., unary_bufs_sub .., ternary_bufs_sub .., reshape_bufs_sub ..,
    nullary_bufs_sub .., unary_bufs_sub .., binary_bufs_sub .., nullary_bufs_sub .., unary_bufs_sub .., binary_bufs_sub ..,
    ternary_bufs_sub .., unary_bufs_sub .., binary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., nullary_bufs_sub .., unary_bufs_sub .., unary_bufs_sub .., ternary_bufs_sub ..,
    unary_bufs_sub .., nullary_bufs_sub .., unary_bufs_sub .., binary_bufs_sub .., ternary_bufs_sub ..⟩

/-! ## What the line leaves in each buffer

The contents after the line are a fold, each operation replacing the one buffer it writes. At the result buffer the
fold, read operation by operation from the last back to the arguments, is the composition `RefTerm.refOut` spells:
each intermediate buffer is read exactly where the operation that wrote it is the latest writer, a reshape is the
re-indexing of its operand, the first helper's conversion of the scalar zero is the identity, and a value written
through a typed reference and read back through it is unchanged. The equation holds for ANY contents `V` of the
buffers, so nothing of the arrays' sizes is ever evaluated: the gathers, the scatter-add and the exponential are kept
folded, and the contraction is met only as the same function of arguments that agree. -/

attribute [local irreducible] Host.gather Host.scatterAdd Host.expm1 in
set_option maxRecDepth 8192 in
theorem out_eq (V : Valuation τ sig (Elt Ideal)) :
    after (ops (F := Ideal)) V (main_v31 : DevRef τ sig)
      = RefTerm.refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

/-! No operation writes an argument's buffer: each keeps its contents across the line. -/

theorem arg0_eq (V : Valuation τ sig (Elt F)) : after ops V (main_arg0 : DevRef τ sig) = V (main_arg0 : DevRef τ sig) := by
  keeps_host ops
theorem arg1_eq (V : Valuation τ sig (Elt F)) : after ops V (main_arg1 : DevRef τ sig) = V (main_arg1 : DevRef τ sig) := by
  keeps_host ops
theorem arg2_eq (V : Valuation τ sig (Elt F)) : after ops V (main_arg2 : DevRef τ sig) = V (main_arg2 : DevRef τ sig) := by
  keeps_host ops
theorem arg3_eq (V : Valuation τ sig (Elt F)) : after ops V (main_arg3 : DevRef τ sig) = V (main_arg3 : DevRef τ sig) := by
  keeps_host ops
theorem arg4_eq (V : Valuation τ sig (Elt F)) : after ops V (main_arg4 : DevRef τ sig) = V (main_arg4 : DevRef τ sig) := by
  keeps_host ops
theorem arg5_eq (V : Valuation τ sig (Elt F)) : after ops V (main_arg5 : DevRef τ sig) = V (main_arg5 : DevRef τ sig) := by
  keeps_host ops
theorem arg6_eq (V : Valuation τ sig (Elt F)) : after ops V (main_arg6 : DevRef τ sig) = V (main_arg6 : DevRef τ sig) := by
  keeps_host ops

/-- On every device, from any memory with zero counters: every weakly fair execution of the reference terminates with
    the result buffer at `RefTerm.refOut` of the seven arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v31)
          = RefTerm.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v31).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.RefRead.lean ====
/-
  The reference's dense layer and its activation, read at an entry.

  The dense layer multiplies a [16, 28000, 576] feature array by [576, 64] weights, contracting the features' last axis
  against the weights' first, and adds the [64] bias spread first to [1, 1, 64] and then over batch and vertex.  At
  result entry (p, n, o) the contraction reads the features at (p, n, k) and the weights at (k, o), k ranging over the
  one contracted axis of extent 576, so the product there is Σ_{k < 576} ft (p, n, k) · w (k, o); the doubly spread bias
  there is b o (an axis of extent 1 is read at coordinate 0, the last axis at o).  Their sum is the specification's
  `pre`, and the reference's where/expm1 spelling of the exponential linear unit on the whole array is the unit entry by
  entry, which is the specification's `out`.  Everything holds for all extended reals; the feature array is arbitrary.
-/
import proofs.«114509_j68607807586563_1_alg».proof.Proof.RefTerm
import proofs.«114509_j68607807586563_1_alg».proof.Proof.Spec
import Idealize.ShloMosaic.PureOps.Ideal.Laws
import Idealize.ShloMosaic.Lib.ValueIdx
import Idealize.ShloMosaic.Lib.Pipeline.Value

noncomputable section

namespace Cert.ReferenceIdeal.RefRead

open Cert.ReferenceIdeal Cert.ReferenceIdeal.Gen Idealize.ShloMosaic Idealize.ShloMosaic.ValueIdx

/-- The layer's dimension numbers: features' axis 2 against weights' axis 0, no batch axis. -/
abbrev DD : DotDims S16x28000x576 S576x64 S16x28000x64 := dot_S16x28000x576_S576x64_S16x28000x64_2_0_01_1_n_n

/-- One axis is contracted. -/
theorem contr_rank : DD.contr.rank = 1 := by rw [DotDims.rank_contr]; rfl

/-- Its extent is 576. -/
theorem contr_size : DD.contr.size ⟨0, by rw [contr_rank]; exact Nat.one_pos⟩ = 576 := by
  rw [DD.size_contr 0 Nat.one_pos]
  rfl

/-- At result entry (p, n, o) and contraction position k the features are read at (p, n, k): the two free axes read the
    result's first two coordinates, the contracted axis the contraction position. -/
theorem lhs_eq (p : Fin 16) (n : Fin 28000) (o : Fin 64) (k : Fin 576) :
    DD.lhsIdx (ix3 p n o) ((contrEquiv1 DD 576 contr_rank contr_size).symm k) = ix3 p n k :=
  funext fun a => Fin.ext (by
    match a with
    | ⟨0, _⟩ => rfl
    | ⟨1, _⟩ => rfl
    | ⟨2, _⟩ => exact (DD.lhsIdx_val_of_single rfl _ _).trans (contrEquiv1_symm_val DD 576 contr_rank contr_size k))

/-- … and the weights at (k, o): the contracted axis reads the contraction position, the free axis the result's last
    coordinate. -/
theorem rhs_eq (p : Fin 16) (n : Fin 28000) (o : Fin 64) (k : Fin 576) :
    DD.rhsIdx (ix3 p n o) ((contrEquiv1 DD 576 contr_rank contr_size).symm k) = ix2 k o :=
  funext fun a => Fin.ext (by
    match a with
    | ⟨0, _⟩ => exact (DD.rhsIdx_val_of_single rfl _ _).trans (contrEquiv1_symm_val DD 576 contr_rank contr_size k)
    | ⟨1, _⟩ => rfl)

/-- The product at entry (p, n, o) is the row of features against the column of weights. -/
theorem dot_apply (ft : (⟨S16x28000x576, .f32⟩ : BufTy).Contents (Elt Ideal)) (w : (⟨S576x64, .f32⟩ : BufTy).Contents (Elt Ideal))
    (p : Fin 16) (n : Fin 28000) (o : Fin 64) :
    Host.dotGeneral (F := Ideal) (φ₁ := .f32) (φ₂ := .f32) DD none ft w (ix3 p n o) = ∑ k : Fin 576, ft (ix3 p n k) * w (ix2 k o) := by
  refine (Ideal.dotGeneral_apply (φ₁ := .f32) (φ₂ := .f32) DD none .single ft w (ix3 p n o)).trans ?_
  rw [← Equiv.sum_comp (contrEquiv1 DD 576 contr_rank contr_size).symm]
  refine Finset.sum_congr rfl fun k _ => ?_
  rw [lhs_eq, rhs_eq]

/-- The bias spread to [1, 1, 64] and then over batch and vertex reads, at (p, n, o), the bias at o. -/
theorem bias_apply (b : (⟨S64, .f32⟩ : BufTy).Contents (Elt Ideal)) (p : Fin 16) (n : Fin 28000) (o : Fin 64) :
    broadcastInDim S16x28000x64 ![0, 1, 2] bcast_S1x1x64_S16x28000x64_0_1_2 (broadcastInDim S1x1x64 ![2] bcast_S64_S1x1x64_2 b)
      (ix3 p n o) = b (ix1 o) := by
  refine (broadcastInDim_apply _ _ _ (ix3 p n o) (ix3 (0 : Fin 1) (0 : Fin 1) o) (fun a => ?_)).trans ?_
  · match a with
    | ⟨0, _⟩ => rfl
    | ⟨1, _⟩ => rfl
    | ⟨2, _⟩ => rfl
  · refine broadcastInDim_apply _ _ _ _ (ix1 o) (fun a => ?_)
    match a with
    | ⟨0, _⟩ => rfl

/-- features · weights + bias at entry (p, n, o) -/
theorem dense_apply (ft : (⟨S16x28000x576, .f32⟩ : BufTy).Contents (Elt Ideal)) (w : (⟨S576x64, .f32⟩ : BufTy).Contents (Elt Ideal))
    (b : (⟨S64, .f32⟩ : BufTy).Contents (Elt Ideal)) (p : Fin 16) (n : Fin 28000) (o : Fin 64) :
    RefTerm.dense ft w b (ix3 p n o) = Cert.Spec.pre ft w b p n o :=
  (addf_apply _ _ _).trans (congrArg₂ (· + ·) (dot_apply ft w p n o) (bias_apply b p n o))

/-- the whole array: the reference's activation of its dense layer is the specification -/
theorem eluJax_dense_eq (ft : (⟨S16x28000x576, .f32⟩ : BufTy).Contents (Elt Ideal)) (w : (⟨S576x64, .f32⟩ : BufTy).Contents (Elt Ideal))
    (b : (⟨S64, .f32⟩ : BufTy).Contents (Elt Ideal)) :
    RefTerm.eluJax (RefTerm.dense ft w b) = Cert.Spec.out ft w b := by
  funext i
  obtain ⟨p, n, o, rfl⟩ : ∃ (p : Fin 16) (n : Fin 28000) (o : Fin 64), i = ix3 p n o := ⟨i 0, i 1, i 2, eq_ix3 i⟩
  refine (Cert.LibElu.elu_jax_apply (RefTerm.dense ft w b) bcast_S_S16x28000x64 (ix3 p n o)).trans ?_
  rw [dense_apply]
  exact (Cert.Spec.out_apply ft w b p n o).symm

end Cert.ReferenceIdeal.RefRead

end
-- ==== Proof.lean ====
/-
  The kernel and its reference compute one function.

  Both programs first pool the input (rows of `x` named by `col`, scaled by `values`, added into the rows named by
  `row`) and gather, for every vertex, the pooled rows of its nine neighbours into a [16, 28000, 576] feature array:
  the same host operations on the same arguments, so one function `feat` of them. From there the reference contracts
  the feature array with the [576, 64] weights, adds the bias spread over batch and vertex, and applies the exponential
  linear unit spelled where(v > 0, v, 1 · expm1(where(v > 0, 0, v))). The kernel lays the feature array out as 448000 rows,
  narrows rows and weights to bf16 (the identity on extended reals), and runs a tiled region of 125 points: each point
  multiplies 3584 rows by the weights into a zero accumulator, adds the bias row and applies the unit spelled
  v if v > 0 else exp v − 1; the 125 row ranges tile the result, which is finally viewed as [16, 28000, 64].

  At entry (p, n, o) both are the unit of Σ_{k < 576} feat (p, n, k) · w (k, o) + b o: the reference because its
  contraction over the last axis of a three-axis array is that sum and its spelling of the unit agrees with the direct one
  at every extended real; the kernel because row p·28000 + n of the flattened array is the old (p, n) and the plain
  matrix product of a tile into zero is that sum. No finiteness of the inputs is used. The idealized kernel is the
  kernel's own text read over the extended reals (no rewrite was applied), so nothing is owed for that.
-/
import proofs.«114509_j68607807586563_1_alg».proof.Defs
import proofs.«114509_j68607807586563_1_alg».proof.Proof.Gen.Kernel
import proofs.«114509_j68607807586563_1_alg».proof.Proof.Gen.Kernel.Frame
import proofs.«114509_j68607807586563_1_alg».proof.Proof.Gen.KernelIdeal
import proofs.«114509_j68607807586563_1_alg».proof.Proof.Gen.KernelIdeal.Frame
import proofs.«114509_j68607807586563_1_alg».proof.Proof.Gen.ReferenceIdeal
import proofs.«114509_j68607807586563_1_alg».proof.Proof.Gen.Pre_finite_inputs
import proofs.«114509_j68607807586563_1_alg».proof.Proof.KerRun
import proofs.«114509_j68607807586563_1_alg».proof.Proof.KerRead
import proofs.«114509_j68607807586563_1_alg».proof.Proof.RefRun
import proofs.«114509_j68607807586563_1_alg».proof.Proof.RefRead

noncomputable section

namespace Cert.Proof

open Idealize.ShloMosaic Idealize.ShloMosaic.TcCoe Idealize.SL.Sem

/-- The pooled-and-gathered feature array is the same function of the arguments in both programs: the same host
    operations, with the same dimension records, applied in the same order. -/
theorem feat_same (x : (⟨Cert.KernelIdeal.S16x7000x64, .f32⟩ : BufTy).Contents (Elt Ideal))
    (vals : (⟨Cert.KernelIdeal.S84000, .f32⟩ : BufTy).Contents (Elt Ideal))
    (row col : (⟨Cert.KernelIdeal.S84000, .i32⟩ : BufTy).Contents (Elt Ideal))
    (spi : (⟨Cert.KernelIdeal.S28000x9, .i32⟩ : BufTy).Contents (Elt Ideal)) :
    Cert.ReferenceIdeal.RefTerm.feat x vals row col spi = Cert.KernelIdeal.KerTerm.feat x vals row col spi := rfl

/-- The two programs' results are one function of the seven arguments: each is the specification `Cert.Spec.out` of the
    shared feature array, the weights and the bias. -/
theorem result_eq (x : (⟨Cert.KernelIdeal.S16x7000x64, .f32⟩ : BufTy).Contents (Elt Ideal))
    (vals : (⟨Cert.KernelIdeal.S84000, .f32⟩ : BufTy).Contents (Elt Ideal))
    (w : (⟨Cert.KernelIdeal.S576x64, .f32⟩ : BufTy).Contents (Elt Ideal))
    (b : (⟨Cert.KernelIdeal.S64, .f32⟩ : BufTy).Contents (Elt Ideal))
    (row col : (⟨Cert.KernelIdeal.S84000, .i32⟩ : BufTy).Contents (Elt Ideal))
    (spi : (⟨Cert.KernelIdeal.S28000x9, .i32⟩ : BufTy).Contents (Elt Ideal)) :
    Cert.ReferenceIdeal.RefTerm.refOut x vals w b row col spi = Cert.KernelIdeal.KerArray.kerOut x vals w b row col spi := by
  unfold Cert.ReferenceIdeal.RefTerm.refOut Cert.KernelIdeal.KerArray.kerOut
  rw [Cert.ReferenceIdeal.RefRead.eluJax_dense_eq, Cert.KernelIdeal.KerRead.laid_eq_spec, feat_same]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- No operation of the kernel was rewritten for the reading over the extended reals. -/
theorem preserves : Cert.preserves_Kernel_KernelIdeal := trivial

/-- From memories that agree on the arguments, the kernel ends at `kerOut` of its arguments and the reference at `refOut`
    of its own: the same array. -/
theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6⟩ := hagree c
  rw [a0, a1, a2, a3, a4, a5, a6]
  exact result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
